-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S128x64 .f32) (main_arg14 : FVec F S64 .f32) (main_arg15 : FVec F S64x1 .f32) (main_arg16 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg15
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg16 main_v63 main_v67

def fn_part2 {F : FTy → Type} [FloatOps F] (main_arg9 : FVec F S64x64 .f32) (main_arg10 : FVec F S64x64 .f32) (main_arg11 : FVec F S64 .f32) (main_arg12 : FVec F S64x64 .f32) (main_arg13 : FVec F S128x64 .f32) (main_arg14 : FVec F S64 .f32) (main_arg15 : FVec F S64x1 .f32) (main_arg16 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S128x64 .f32) (main_arg14 : FVec F S64 .f32) (main_arg15 : FVec F S64x1 .f32) (main_arg16 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x3200000 32) (main_arg2 : IVec S2x1000000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S128x64 .f32) (main_arg14 : FVec F S64 .f32) (main_arg15 : FVec F S64x1 .f32) (main_arg16 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x3200000 : Shape := ⟨2, ![2, 3200000]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S1x64 : Shape := ⟨2, ![1, 64]⟩
abbrev S3200000x64 : Shape := ⟨2, ![3200000, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S1000000x128 : Shape := ⟨2, ![1000000, 128]⟩
abbrev S10000x1 : Shape := ⟨2, ![10000, 1]⟩
abbrev S1x1 : Shape := ⟨2, ![1, 1]⟩

abbrev nBuf : Space → Nat
  | .hbm => 100
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S2x1000000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S128x64, .f32⟩
  | .hbm, ⟨14, _⟩ => ⟨S64, .f32⟩
  | .hbm, ⟨15, _⟩ => ⟨S64x1, .f32⟩
  | .hbm, ⟨16, _⟩ => ⟨S1, .f32⟩
  | .hbm, ⟨17, _⟩ => ⟨S1x3200000, .i32⟩
  | .hbm, ⟨18, _⟩ => ⟨S3200000, .i32⟩
  | .hbm, ⟨19, _⟩ => ⟨S1x3200000, .i32⟩
  | .hbm, ⟨20, _⟩ => ⟨S3200000, .i32⟩
  | .hbm, ⟨21, _⟩ => ⟨S_, .f32⟩
  | .hbm, ⟨22, _⟩ => ⟨S3200000, .f32⟩
  | .hbm, ⟨23, _⟩ => ⟨S_, .f32⟩
  | .hbm, ⟨24, _⟩ => ⟨S100000, .f32⟩
  | .hbm, ⟨25, _⟩ => ⟨S3200000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x64, .f32⟩
  | .hbm, ⟨51, _⟩ => ⟨S_, .f32⟩
  | .hbm, ⟨52, _⟩ => ⟨S100000x64, .f32⟩
  | .hbm, ⟨53, _⟩ => ⟨S3200000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S_, .i32⟩
  | .hbm, ⟨60, _⟩ => ⟨S3200000, .i32⟩
  | .hbm, ⟨61, _⟩ => ⟨S3200000, .i1⟩
  | .hbm, ⟨62, _⟩ => ⟨S_, .i32⟩
  | .hbm, ⟨63, _⟩ => ⟨S3200000, .i32⟩
  | .hbm, ⟨64, _⟩ => ⟨S3200000, .i32⟩
  | .hbm, ⟨65, _⟩ => ⟨S3200000, .i32⟩
  | .hbm, ⟨66, _⟩ => ⟨S3200000x1, .i32⟩
  | .hbm, ⟨67, _⟩ => ⟨S3200000x64, .f32⟩
  | .hbm, ⟨68, _⟩ => ⟨S_, .f32⟩
  | .hbm, ⟨69, _⟩ => ⟨S100000x64, .f32⟩
  | .hbm, ⟨70, _⟩ => ⟨S3200000x1, .i32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x1000000, .i32⟩
  | .hbm, ⟨76, _⟩ => ⟨S1000000, .i32⟩
  | .hbm, ⟨77, _⟩ => ⟨S1x1000000, .i32⟩
  | .hbm, ⟨78, _⟩ => ⟨S1000000, .i32⟩
  | .hbm, ⟨79, _⟩ => ⟨S_, .i32⟩
  | .hbm, ⟨80, _⟩ => ⟨S1000000, .i32⟩
  | .hbm, ⟨81, _⟩ => ⟨S1000000, .i1⟩
  | .hbm, ⟨82, _⟩ => ⟨S_, .i32⟩
  | .hbm, ⟨83, _⟩ => ⟨S1000000, .i32⟩
  | .hbm, ⟨84, _⟩ => ⟨S1000000, .i32⟩
  | .hbm, ⟨85, _⟩ => ⟨S1000000, .i32⟩
  | .hbm, ⟨86, _⟩ => ⟨S1000000x1, .i32⟩
  | .hbm, ⟨87, _⟩ => ⟨S1000000x64, .f32⟩
  | .hbm, ⟨88, _⟩ => ⟨S_, .i32⟩
  | .hbm, ⟨89, _⟩ => ⟨S1000000, .i32⟩
  | .hbm, ⟨90, _⟩ => ⟨S1000000, .i1⟩
  | .hbm, ⟨91, _⟩ => ⟨S_, .i32⟩
  | .hbm, ⟨92, _⟩ => ⟨S1000000, .i32⟩
  | .hbm, ⟨93, _⟩ => ⟨S1000000, .i32⟩
  | .hbm, ⟨94, _⟩ => ⟨S1000000, .i32⟩
  | .hbm, ⟨95, _⟩ => ⟨S1000000x1, .i32⟩
  | .hbm, ⟨96, _⟩ => ⟨S1000000x64, .f32⟩
  | .hbm, ⟨97, _⟩ => ⟨S1000000x128, .f32⟩
  | .hbm, ⟨98, _⟩ => ⟨S1000000x1, .f32⟩
  | .hbm, ⟨99, _⟩ => ⟨S1000000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S64x64, .f32⟩
  | .local _ .vmem, ⟨26, _⟩ => ⟨S64, .f32⟩
  | .local _ .vmem, ⟨27, _⟩ => ⟨S64x64, .f32⟩
  | .local _ .vmem, ⟨28, _⟩ => ⟨S10000x64, .f32⟩
  | .local _ .vmem, ⟨29, _⟩ => ⟨S10000x64, .f32⟩
  | .local _ .vmem, ⟨30, _⟩ => ⟨S10000x128, .f32⟩
  | .local _ .vmem, ⟨31, _⟩ => ⟨S10000x128, .f32⟩
  | .local _ .vmem, ⟨32, _⟩ => ⟨S128x64, .f32⟩
  | .local _ .vmem, ⟨33, _⟩ => ⟨S64, .f32⟩
  | .local _ .vmem, ⟨34, _⟩ => ⟨S64x1, .f32⟩
  | .local _ .vmem, ⟨35, _⟩ => ⟨S1, .f32⟩
  | .local _ .vmem, ⟨36, _⟩ => ⟨S10000x1, .f32⟩
  | .local _ .vmem, ⟨37, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c : Ref sig .tc := ⟨.hbm, 42, rfl⟩
abbrev main_v17 : Ref sig .tc := ⟨.hbm, 43, rfl⟩
abbrev main_v18 : Ref sig .tc := ⟨.hbm, 44, rfl⟩
abbrev main_c_5 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_6 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_7 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_9 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_10 : Ref sig .tc := ⟨.hbm, 79, rfl⟩
abbrev main_v48 : Ref sig .tc := ⟨.hbm, 80, rfl⟩
abbrev main_v49 : Ref sig .tc := ⟨.hbm, 81, rfl⟩
abbrev main_c_11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_12 : Ref sig .tc := ⟨.hbm, 88, rfl⟩
abbrev main_v55 : Ref sig .tc := ⟨.hbm, 89, rfl⟩
abbrev main_v56 : Ref sig .tc := ⟨.hbm, 90, rfl⟩
abbrev main_c_13 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  shapeCasts_S10000x128_S10000x128 : S10000x128.ShapeCasts S10000x128
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S1000000x1_S1000000 : S1000000x1.ShapeCasts S1000000
  scatter_S100000_S3200000x1_S3200000_n_0_0_1_wf : ScatterDims.WF S100000 S3200000x1 S3200000 [] [0] [0] 1
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  gather_S100000x64_S1000000x1_S1000000x64_1_0_n_n_0_1_164_wf : GatherDims.WF S100000x64 S1000000x1 S1000000x64 [1] [0] [] [0] [] 1 ![1, 64]
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1000000x128.size a
  hwx4_0 : ∀ i : grid4.Coords, EltTy.bits .f32 = 32 ∨ (Rect.block (s := S1000000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1.size a ≤ S1.size a
  hwx4_4 : ∀ i : grid4.Coords, EltTy.bits .f32 = 32 ∨ (Rect.block (s := S1) S1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x1.size a ≤ S1000000x1.size a
  hwx4_5 : ∀ i : grid4.Coords, EltTy.bits .f32 = 32 ∨ (Rect.block (s := S1000000x1) S10000x1.size (cc4_transform_5 i) (hinb4_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v62) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v63) S10000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x64 : Shape := ⟨2, ![100000, 64]⟩
abbrev S1x64 : Shape := ⟨2, ![1, 64]⟩
abbrev S3200000x64 : Shape := ⟨2, ![3200000, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S1000000x128 : Shape := ⟨2, ![1000000, 128]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x3200000, .i32⟩
  | 2 => ⟨S2x1000000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S128x64, .f32⟩
  | 14 => ⟨S64, .f32⟩
  | 15 => ⟨S64x1, .f32⟩
  | 16 => ⟨S1, .f32⟩
  | 17 => ⟨S1x3200000, .i32⟩
  | 18 => ⟨S3200000, .i32⟩
  | 19 => ⟨S1x3200000, .i32⟩
  | 20 => ⟨S3200000, .i32⟩
  | 21 => ⟨S_, .f32⟩
  | 22 => ⟨S3200000, .f32⟩
  | 23 => ⟨S_, .f32⟩
  | 24 => ⟨S100000, .f32⟩
  | 25 => ⟨S3200000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S100000x1, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000x64, .f32⟩
  | 57 => ⟨S_, .f32⟩
  | 58 => ⟨S100000x64, .f32⟩
  | 59 => ⟨S3200000x1, .i32⟩
  | 60 => ⟨S100000x64, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3200000x64, .f32⟩
  | 88 => ⟨S_, .f32⟩
  | 89 => ⟨S100000x64, .f32⟩
  | 90 => ⟨S3200000x1, .i32⟩
  | 91 => ⟨S100000x64, .f32⟩
  | 92 => ⟨S100000x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S1x1000000, .i32⟩
  | 104 => ⟨S1000000, .i32⟩
  | 105 => ⟨S_, .i32⟩
  | 106 => ⟨S1000000, .i32⟩
  | 107 => ⟨S1000000, .i1⟩
  | 108 => ⟨S_, .i32⟩
  | 109 => ⟨S1000000, .i32⟩
  | 110 => ⟨S1000000, .i32⟩
  | 111 => ⟨S1000000, .i32⟩
  | 112 => ⟨S1000000x1, .i32⟩
  | 113 => ⟨S1000000x64, .f32⟩
  | 114 => ⟨S1x1000000, .i32⟩
  | 115 => ⟨S1000000, .i32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S1000000x1, .i32⟩
  | 124 => ⟨S1000000x64, .f32⟩
  | 125 => ⟨S1000000x128, .f32⟩
  | 126 => ⟨S1000000x64, .f32⟩
  | 127 => ⟨S1x64, .f32⟩
  | _ => ⟨S100000x128, .f32⟩

abbrev hbmTy0_1 (i : Nat) : BufTy := match i % 128 with
  | 0 => ⟨S1000000x64, .f32⟩
  | 1 => ⟨S1000000x64, .f32⟩
  | 2 => ⟨S_, .f32⟩
  | 3 => ⟨S1000000x64, .f32⟩
  | 4 => ⟨S1000000x64, .f32⟩
  | 5 => ⟨S1000000x1, .f32⟩
  | 6 => ⟨S1x1, .f32⟩
  | 7 => ⟨S1000000x1, .f32⟩
  | 8 => ⟨S1000000x1, .f32⟩
  | 9 => ⟨S1000000, .f32⟩
  | 10 => ⟨S1000000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call1_cst : Ref sig .tc := ⟨.hbm, 45, rfl⟩
abbrev main_call1_v0 : Ref sig .tc := ⟨.hbm, 46, rfl⟩
abbrev main_v20 : Ref sig .tc := ⟨.hbm, 47, rfl⟩
abbrev main_c : Ref sig .tc := ⟨.hbm, 48, rfl⟩
abbrev main_v21 : Ref sig .tc := ⟨.hbm, 49, rfl⟩
abbrev main_v22 : Ref sig .tc := ⟨.hbm, 50, rfl⟩
abbrev main_c_5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_6 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_call2_cst : Ref sig .tc := ⟨.hbm, 69, rfl⟩
abbrev main_call2_v0 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_call3_cst : Ref sig .tc := ⟨.hbm, 76, rfl⟩
abbrev main_call3_v0 : Ref sig .tc := ⟨.hbm, 77, rfl⟩
abbrev main_v44 : Ref sig .tc := ⟨.hbm, 78, rfl⟩
abbrev main_c_7 : Ref sig .tc := ⟨.hbm, 79, rfl⟩
abbrev main_v45 : Ref sig .tc := ⟨.hbm, 80, rfl⟩
abbrev main_v46 : Ref sig .tc := ⟨.hbm, 81, rfl⟩
abbrev main_c_8 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_9 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_call4_cst : Ref sig .tc := ⟨.hbm, 100, rfl⟩
abbrev main_call4_v0 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_10 : Ref sig .tc := ⟨.hbm, 105, rfl⟩
abbrev main_v66 : Ref sig .tc := ⟨.hbm, 106, rfl⟩
abbrev main_v67 : Ref sig .tc := ⟨.hbm, 107, rfl⟩
abbrev main_c_11 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_c_12 : Ref sig .tc := ⟨.hbm, 116, rfl⟩
abbrev main_v75 : Ref sig .tc := ⟨.hbm, 117, rfl⟩
abbrev main_v76 : Ref sig .tc := ⟨.hbm, 118, rfl⟩
abbrev main_c_13 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_call5_cst : Ref sig .tc := ⟨.hbm, 130, rfl⟩
abbrev main_call5_v0 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x64_S1000000x64_S1000000x128_d1 : Shape.Concatenates [S1000000x64, S1000000x64] S1000000x128 1
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  scatter_S100000_S3200000x1_S3200000_n_0_0_1_wf : ScatterDims.WF S100000 S3200000x1 S3200000 [] [0] [0] 1
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  dot_S1000000x128_S128x64_S1000000x64_1_0_0_1_n_n_wf : DotDims.WF S1000000x128 S128x64 S1000000x64 [1] [0] [0] [1] [] []
  dot_S1000000x64_S64x1_S1000000x1_1_0_0_1_n_n_wf : DotDims.WF S1000000x64 S64x1 S1000000x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.KernelRun.lean ====
/-
  The idealized kernel's run with its result named.

  @main is five kernel launches among stretches of host operations.  The generated frame folds the buffer contents
  from the launch memory through every stretch and every launch (`Gen.W0` … `Gen.W12`) and shows that every
  weakly fair execution ends with every unscoped buffer at the last boundary's contents; its statement then keeps
  only the argument arrays.  Here the same run is stated once more with the result buffer `main_v64` kept as well:
  it ends at `Gen.W12 m ρ c` read at `main_v64`, which the later modules compute as a function of the arguments.
-/
import proofs.«164999_j39333310496986_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v64) = W12 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v64 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c)⟩)

end Cert.KernelIdeal.RunValue

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.Region0.lean ====
/-
  The first kernel launch: `relu (x · w + b)` over 100000 rows in ten blocks of 10000 rows.

  At grid point `t` the body loads rows `[10000 t, 10000 (t + 1))` of `x`, the whole of `w` and `b`, and stores
  `max (x_blk · w + b, 0)` to the same rows of the output.  An output entry `(P, q)` therefore depends on row `P` of
  `x` only, and the ten blocks tile the output: after the launch the output array is `linRelu x w b` of the arrays
  the launch found, entry by entry.
-/
import proofs.«164999_j39333310496986_1_alg».proof.Proof.Gen.KernelIdeal.Frame
import proofs.«164999_j39333310496986_1_alg».proof.Proof.LibPlainDot
import proofs.«164999_j39333310496986_1_alg».proof.Proof.LibDense
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.ShloMosaic.DenseLayer Idealize.SL.Sem
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a <;> rfl

/-- The body's stored value at entry `(p, q)` of a block: the row of the loaded block against the column of the
    weights, plus the bias, clamped below at zero. -/
theorem body_apply (x0 : Vec Ideal S10000x128 .f32) (x1 : Vec Ideal S128x64 .f32) (x2 : Vec Ideal S64 .f32)
    (p : Fin 10000) (q : Fin 64) :
    k0_pay1 x0 x1 x2 (ix2 p q) = max (∑ k : Fin 128, x0 (ix2 p k) * x1 (ix2 k q) + x2 (ix1 q)) zeroWord := by
  unfold k0_pay1
  show max (FloatOps.matmul (F := Ideal) dot_S10000x128_S128x64_S10000x64_1_0_0_1_n_n none
      (truncf (F := Ideal) .bf16 x0 bitsLt_bf16_f32) (truncf (F := Ideal) .bf16 x1 bitsLt_bf16_f32)
      (constant (F := Ideal) S10000x64 .f32 0x00000000#32) (ix2 p q)
    + broadcastTo S10000x64 (shapeCast S1x64 x2 shapeCasts_S64_S1x64) broadcasts_S1x64_S10000x64 (ix2 p q)) zeroWord = _
  rw [PlainDot.matmul_zero_apply dot_S10000x128_S128x64_S10000x64_1_0_0_1_n_n rfl, castRow_apply]
  rfl

theorem body_at (x0 : Vec Ideal S10000x128 .f32) (x1 : Vec Ideal S128x64 .f32) (x2 : Vec Ideal S64 .f32)
    (y : S10000x64.Idx) :
    k0_pay1 x0 x1 x2 y = max (∑ k : Fin 128, x0 (ix2 (y 0) k) * x1 (ix2 k (y 1)) + x2 (ix1 (y 1))) zeroWord := by
  obtain ⟨p, q, rfl⟩ : ∃ (p : Fin 10000) (q : Fin 64), y = ix2 p q := ⟨y 0, y 1, eq_ix2 y⟩
  exact body_apply x0 x1 x2 p q

variable (V : (c : Dev nD) → (b : Ref sig .tc) → Buf (Elt Ideal) ((c : Thread nD τ).loc b))

/-- The printed index maps over the ten grid points: the rows of `x` move with the output's rows, the weights and the
    bias stay, and neither `x` nor the output is blocked along its columns. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 :=
  (by decide +kernel : ∀ t : Fin grid0.N, _)

/-- Every one of the ten row blocks is some grid point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What grid point `t` writes back is block `t` of `linRelu` of the arrays the launch found. -/
theorem flushed_eq (c : Dev nD) (t : Fin cfg0.N) :
    (dat0 V c).flushed 3 t = ((cfg0.win 3).blk t).view.read (Elt Ideal)
      (linRelu (M := 100000) (K := 128) (N := 64) (V c main_arg0) (V c main_arg3) (V c main_arg4)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S64) hz1]
  obtain ⟨e0, e1, e2, e3, e4, e5⟩ := idx_facts t
  funext j
  refine (body_at (iblk0 V c 0 t) (iblk0 V c 1 t) (iblk0 V c 2 t) j).trans ?_
  have hx : ∀ k : Fin 128, iblk0 V c 0 t (ix2 (j 0) k)
      = V c main_arg0 (ix2 ((((cfg0.win 3).blk t).view.emb j) 0) k) := fun k => by
    show V c main_arg0 (((cfg0.win 0).blk t).view.emb (ix2 (j 0) k)) = _
    refine congrArg (V c main_arg0) (funext fun a => Fin.ext ?_)
    match a with
    | ⟨0, _⟩ =>
      show win0_0.index t (0 : Fin 2) * 10000 + 1 * (j 0).val = win0_3.index t (0 : Fin 2) * 10000 + 1 * (j 0).val
      omega
    | ⟨1, _⟩ =>
      show win0_0.index t (1 : Fin 2) * 128 + 1 * k.val = k.val
      omega
  have hw : ∀ k : Fin 128, iblk0 V c 1 t (ix2 k (j 1))
      = V c main_arg3 (ix2 k ((((cfg0.win 3).blk t).view.emb j) 1)) := fun k => by
    show V c main_arg3 (((cfg0.win 1).blk t).view.emb (ix2 k (j 1))) = _
    refine congrArg (V c main_arg3) (funext fun a => Fin.ext ?_)
    match a with
    | ⟨0, _⟩ =>
      show win0_1.index t (0 : Fin 2) * 128 + 1 * k.val = k.val
      omega
    | ⟨1, _⟩ =>
      show win0_1.index t (1 : Fin 2) * 64 + 1 * (j 1).val = win0_3.index t (1 : Fin 2) * 64 + 1 * (j 1).val
      omega
  have hb : iblk0 V c 2 t (ix1 (j 1)) = V c main_arg4 (ix1 ((((cfg0.win 3).blk t).view.emb j) 1)) := by
    show V c main_arg4 (((cfg0.win 2).blk t).view.emb (ix1 (j 1))) = _
    refine congrArg (V c main_arg4) (funext fun a => Fin.ext ?_)
    match a with
    | ⟨0, _⟩ =>
      show win0_2.index t (0 : Fin 1) * 64 + 1 * (j 1).val = win0_3.index t (1 : Fin 2) * 64 + 1 * (j 1).val
      omega
  rw [Finset.sum_congr rfl (fun k _ => by rw [hx k, hw k]), hb]
  rfl

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v16).slice (win0_3.rect t)).set ↔ _
  rw [View.set_slice_whole, Rect.mem_set_unit]
  exact Iff.rfl

/-- The ten blocks cover the output: row `r` is in block `r / 10000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- The output array after the launch. -/
theorem final (c : Dev nD) :
    (dat0 V c).arrAt 3 cfg0.N
      = linRelu (M := 100000) (K := 128) (N := 64) (V c main_arg0) (V c main_arg3) (V c main_arg4) :=
  (dat0 V c).arrAt_eq_of_cover 3 _ (fun t _ => flushed_eq V c t) (cover)

end Cert.KernelIdeal.Region0

end
-- ==== Proof.Region1.lean ====
/-
  The second kernel launch: `relu ((agg · wl + bl) + h · wr)` over 100000 rows of 64 columns, in ten blocks of 10000 rows.

  At grid point `t` the body loads rows `[10000 t, 10000 (t + 1))` of `agg` and of `h`, the whole of `wl`, `bl` and
  `wr`, and stores `max ((agg_blk · wl + bl) + h_blk · wr, 0)` to the same rows of the output.  An output entry
  `(P, q)` depends on row `P` of `agg` and of `h` only, and the ten blocks tile the output: after the launch the output
  array is `sageRelu agg h wl bl wr` of the arrays the launch found, entry by entry.
-/
import proofs.«164999_j39333310496986_1_alg».proof.Proof.Gen.KernelIdeal.Frame
import proofs.«164999_j39333310496986_1_alg».proof.Proof.LibPlainDot
import proofs.«164999_j39333310496986_1_alg».proof.Proof.LibDense
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.ShloMosaic.DenseLayer Idealize.SL.Sem
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a <;> rfl

/-- The body's stored value at entry `(p, q)` of a block: row `p` of the aggregate against column `q` of `wl`, plus
    the bias, plus row `p` of `h` against column `q` of `wr`, clamped below at zero. -/
theorem body_apply (x0 x1 : Vec Ideal S10000x64 .f32) (x2 x3 : Vec Ideal S64x64 .f32) (x4 : Vec Ideal S64 .f32)
    (p : Fin 10000) (q : Fin 64) :
    k1_pay1 x0 x1 x2 x3 x4 (ix2 p q)
      = max ((∑ k : Fin 64, x0 (ix2 p k) * x2 (ix2 k q) + x4 (ix1 q)) + ∑ k : Fin 64, x1 (ix2 p k) * x3 (ix2 k q)) zeroWord := by
  unfold k1_pay1
  show max ((FloatOps.matmul (F := Ideal) dot_S10000x64_S64x64_S10000x64_1_0_0_1_n_n none
        (truncf (F := Ideal) .bf16 (shapeCast S10000x64 x0 shapeCasts_S10000x64_S10000x64) bitsLt_bf16_f32)
        (truncf (F := Ideal) .bf16 x2 bitsLt_bf16_f32) (constant (F := Ideal) S10000x64 .f32 0x00000000#32) (ix2 p q)
      + broadcastTo S10000x64 (shapeCast S1x64 x4 shapeCasts_S64_S1x64) broadcasts_S1x64_S10000x64 (ix2 p q))
    + FloatOps.matmul (F := Ideal) dot_S10000x64_S64x64_S10000x64_1_0_0_1_n_n none
        (truncf (F := Ideal) .bf16 (shapeCast S10000x64 x1 shapeCasts_S10000x64_S10000x64) bitsLt_bf16_f32)
        (truncf (F := Ideal) .bf16 x3 bitsLt_bf16_f32) (constant (F := Ideal) S10000x64 .f32 0x00000000#32) (ix2 p q)) zeroWord = _
  rw [shapeCast_self x0, shapeCast_self x1,
    PlainDot.matmul_zero_apply dot_S10000x64_S64x64_S10000x64_1_0_0_1_n_n rfl none (truncf (F := Ideal) .bf16 x0 bitsLt_bf16_f32),
    PlainDot.matmul_zero_apply dot_S10000x64_S64x64_S10000x64_1_0_0_1_n_n rfl none (truncf (F := Ideal) .bf16 x1 bitsLt_bf16_f32),
    castRow_apply]
  rfl

theorem body_at (x0 x1 : Vec Ideal S10000x64 .f32) (x2 x3 : Vec Ideal S64x64 .f32) (x4 : Vec Ideal S64 .f32)
    (y : S10000x64.Idx) :
    k1_pay1 x0 x1 x2 x3 x4 y
      = max ((∑ k : Fin 64, x0 (ix2 (y 0) k) * x2 (ix2 k (y 1)) + x4 (ix1 (y 1)))
          + ∑ k : Fin 64, x1 (ix2 (y 0) k) * x3 (ix2 k (y 1))) zeroWord := by
  obtain ⟨p, q, rfl⟩ : ∃ (p : Fin 10000) (q : Fin 64), y = ix2 p q := ⟨y 0, y 1, eq_ix2 y⟩
  exact body_apply x0 x1 x2 x3 x4 p q

variable (V : (c : Dev nD) → (b : Ref sig .tc) → Buf (Elt Ideal) ((c : Thread nD τ).loc b))

/-- The printed index maps over the ten grid points: the rows of `agg` and of `h` move with the output's rows, the
    weights and the bias stay, and nothing is blocked along its columns. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (1 : Fin 2) = 0 :=
  (by decide +kernel : ∀ t : Fin grid1.N, _)

/-- Every one of the ten row blocks is some grid point's. -/
theorem idx_onto : ∀ q0 : Fin 10, ∃ t : Fin cfg1.N, win1_5.index t = ![q0.val, 0] :=
  (by decide +kernel : ∀ q0 : Fin 10, ∃ t : Fin grid1.N, win1_5.index t = ![q0.val, 0])

set_option maxHeartbeats 1600000 in
/-- What grid point `t` writes back is block `t` of `sageRelu` of the arrays the launch found. -/
theorem flushed_eq (c : Dev nD) (t : Fin cfg1.N) :
    (dat1 V c).flushed 5 t = ((cfg1.win 5).blk t).view.read (Elt Ideal)
      (sageRelu (M := 100000) (K := 64) (N := 64) (V c main_v28) (V c main_v16) (V c main_arg7) (V c main_arg8) (V c main_arg9)) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S64) hz1]
  obtain ⟨e0, e1, e2, e3, e4, e5, e6, e7, e8, e9⟩ := idx_facts t
  funext j
  refine (body_at (iblk1 V c 0 t) (iblk1 V c 1 t) (iblk1 V c 2 t) (iblk1 V c 4 t) (iblk1 V c 3 t) j).trans ?_
  have ha : ∀ k : Fin 64, iblk1 V c 0 t (ix2 (j 0) k)
      = V c main_v28 (ix2 ((((cfg1.win 5).blk t).view.emb j) 0) k) := fun k => by
    show V c main_v28 (((cfg1.win 0).blk t).view.emb (ix2 (j 0) k)) = _
    refine congrArg (V c main_v28) (funext fun a => Fin.ext ?_)
    match a with
    | ⟨0, _⟩ =>
      show win1_0.index t (0 : Fin 2) * 10000 + 1 * (j 0).val = win1_5.index t (0 : Fin 2) * 10000 + 1 * (j 0).val
      omega
    | ⟨1, _⟩ =>
      show win1_0.index t (1 : Fin 2) * 64 + 1 * k.val = k.val
      omega
  have hh : ∀ k : Fin 64, iblk1 V c 1 t (ix2 (j 0) k)
      = V c main_v16 (ix2 ((((cfg1.win 5).blk t).view.emb j) 0) k) := fun k => by
    show V c main_v16 (((cfg1.win 1).blk t).view.emb (ix2 (j 0) k)) = _
    refine congrArg (V c main_v16) (funext fun a => Fin.ext ?_)
    match a with
    | ⟨0, _⟩ =>
      show win1_1.index t (0 : Fin 2) * 10000 + 1 * (j 0).val = win1_5.index t (0 : Fin 2) * 10000 + 1 * (j 0).val
      omega
    | ⟨1, _⟩ =>
      show win1_1.index t (1 : Fin 2) * 64 + 1 * k.val = k.val
      omega
  have hwl : ∀ k : Fin 64, iblk1 V c 2 t (ix2 k (j 1))
      = V c main_arg7 (ix2 k ((((cfg1.win 5).blk t).view.emb j) 1)) := fun k => by
    show V c main_arg7 (((cfg1.win 2).blk t).view.emb (ix2 k (j 1))) = _
    refine congrArg (V c main_arg7) (funext fun a => Fin.ext ?_)
    match a with
    | ⟨0, _⟩ =>
      show win1_2.index t (0 : Fin 2) * 64 + 1 * k.val = k.val
      omega
    | ⟨1, _⟩ =>
      show win1_2.index t (1 : Fin 2) * 64 + 1 * (j 1).val = win1_5.index t (1 : Fin 2) * 64 + 1 * (j 1).val
      omega
  have hwr : ∀ k : Fin 64, iblk1 V c 4 t (ix2 k (j 1))
      = V c main_arg9 (ix2 k ((((cfg1.win 5).blk t).view.emb j) 1)) := fun k => by
    show V c main_arg9 (((cfg1.win 4).blk t).view.emb (ix2 k (j 1))) = _
    refine congrArg (V c main_arg9) (funext fun a => Fin.ext ?_)
    match a with
    | ⟨0, _⟩ =>
      show win1_4.index t (0 : Fin 2) * 64 + 1 * k.val = k.val
      omega
    | ⟨1, _⟩ =>
      show win1_4.index t (1 : Fin 2) * 64 + 1 * (j 1).val = win1_5.index t (1 : Fin 2) * 64 + 1 * (j 1).val
      omega
  have hbl : iblk1 V c 3 t (ix1 (j 1)) = V c main_arg8 (ix1 ((((cfg1.win 5).blk t).view.emb j) 1)) := by
    show V c main_arg8 (((cfg1.win 3).blk t).view.emb (ix1 (j 1))) = _
    refine congrArg (V c main_arg8) (funext fun a => Fin.ext ?_)
    match a with
    | ⟨0, _⟩ =>
      show win1_3.index t (0 : Fin 1) * 64 + 1 * (j 1).val = win1_5.index t (1 : Fin 2) * 64 + 1 * (j 1).val
      omega
  exact congrArg₂ max (congrArg₂ (· + ·) (congrArg₂ (· + ·) (Finset.sum_congr rfl fun k _ => by rw [ha k, hwl k]) hbl)
    (Finset.sum_congr rfl fun k _ => by rw [hh k, hwr k])) rfl

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v29).slice (win1_5.rect t)).set ↔ _
  rw [View.set_slice_whole, Rect.mem_set_unit]
  exact Iff.rfl

/-- The ten blocks cover the output: row `r` is in block `r / 10000`. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 64 ≤ (i 1).val ∧ (i 1).val < win1_5.index t (1 : Fin 2) * 64 + 64
    omega

/-- The output array after the launch. -/
theorem final (c : Dev nD) :
    (dat1 V c).arrAt 5 cfg1.N
      = sageRelu (M := 100000) (K := 64) (N := 64) (V c main_v28) (V c main_v16) (V c main_arg7) (V c main_arg8) (V c main_arg9) :=
  (dat1 V c).arrAt_eq_of_cover 5 _ (fun t _ => flushed_eq V c t) (cover)

end Cert.KernelIdeal.Region1

end
-- ==== Proof.Region2.lean ====
/-
  The third kernel launch: `relu (h · w + b)` over 100000 rows of 64 columns, in ten blocks of 10000 rows.

  At grid point `t` the body loads rows `[10000 t, 10000 (t + 1))` of `h`, the whole of `w` and `b`, and stores
  `max (h_blk · w + b, 0)` to the same rows of the output.  An output entry `(P, q)` therefore depends on row `P` of
  `h` only, and the ten blocks tile the output: after the launch the output array is `linRelu h w b` of the arrays
  the launch found, entry by entry.
-/
import proofs.«164999_j39333310496986_1_alg».proof.Proof.Gen.KernelIdeal.Frame
import proofs.«164999_j39333310496986_1_alg».proof.Proof.LibPlainDot
import proofs.«164999_j39333310496986_1_alg».proof.Proof.LibDense
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.ShloMosaic.DenseLayer Idealize.SL.Sem
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a <;> rfl

/-- The body's stored value at entry `(p, q)` of a block: the row of the loaded block against the column of the
    weights, plus the bias, clamped below at zero. -/
theorem body_apply (x0 : Vec Ideal S10000x64 .f32) (x1 : Vec Ideal S64x64 .f32) (x2 : Vec Ideal S64 .f32)
    (p : Fin 10000) (q : Fin 64) :
    k2_pay1 x0 x1 x2 (ix2 p q) = max (∑ k : Fin 64, x0 (ix2 p k) * x1 (ix2 k q) + x2 (ix1 q)) zeroWord := by
  unfold k2_pay1
  show max (FloatOps.matmul (F := Ideal) dot_S10000x64_S64x64_S10000x64_1_0_0_1_n_n none
      (truncf (F := Ideal) .bf16 (shapeCast S10000x64 x0 shapeCasts_S10000x64_S10000x64) bitsLt_bf16_f32) (truncf (F := Ideal) .bf16 x1 bitsLt_bf16_f32)
      (constant (F := Ideal) S10000x64 .f32 0x00000000#32) (ix2 p q)
    + broadcastTo S10000x64 (shapeCast S1x64 x2 shapeCasts_S64_S1x64) broadcasts_S1x64_S10000x64 (ix2 p q)) zeroWord = _
  rw [shapeCast_self, PlainDot.matmul_zero_apply dot_S10000x64_S64x64_S10000x64_1_0_0_1_n_n rfl, castRow_apply]
  rfl

theorem body_at (x0 : Vec Ideal S10000x64 .f32) (x1 : Vec Ideal S64x64 .f32) (x2 : Vec Ideal S64 .f32)
    (y : S10000x64.Idx) :
    k2_pay1 x0 x1 x2 y = max (∑ k : Fin 64, x0 (ix2 (y 0) k) * x1 (ix2 k (y 1)) + x2 (ix1 (y 1))) zeroWord := by
  obtain ⟨p, q, rfl⟩ : ∃ (p : Fin 10000) (q : Fin 64), y = ix2 p q := ⟨y 0, y 1, eq_ix2 y⟩
  exact body_apply x0 x1 x2 p q

variable (V : (c : Dev nD) → (b : Ref sig .tc) → Buf (Elt Ideal) ((c : Thread nD τ).loc b))

/-- The printed index maps over the ten grid points: the rows of `x` move with the output's rows, the weights and the
    bias stay, and neither `x` nor the output is blocked along its columns. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 1) = 0
    ∧ win2_3.index t (1 : Fin 2) = 0 :=
  (by decide +kernel : ∀ t : Fin grid2.N, _)

/-- Every one of the ten row blocks is some grid point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- What grid point `t` writes back is block `t` of `linRelu` of the arrays the launch found. -/
theorem flushed_eq (c : Dev nD) (t : Fin cfg2.N) :
    (dat2 V c).flushed 3 t = ((cfg2.win 3).blk t).view.read (Elt Ideal)
      (linRelu (M := 100000) (K := 64) (N := 64) (V c main_v29) (V c main_arg5) (V c main_arg6)) := by
  show (cfg2.win 3).cut (grid2.coords t) ((dat2 V c).after 3 t) = _
  rw [after2_3]
  unfold out2_3
  rw [View.canon_unit_zero hz]
  simp only [View.ld_unit_zero (S := S10000x64) hz, View.ld_unit_zero (S := S64x64) hz, View.ld_unit_zero (S := S64) hz1]
  obtain ⟨e0, e1, e2, e3, e4, e5⟩ := idx_facts t
  funext j
  refine (body_at (iblk2 V c 0 t) (iblk2 V c 1 t) (iblk2 V c 2 t) j).trans ?_
  have hx : ∀ k : Fin 64, iblk2 V c 0 t (ix2 (j 0) k)
      = V c main_v29 (ix2 ((((cfg2.win 3).blk t).view.emb j) 0) k) := fun k => by
    show V c main_v29 (((cfg2.win 0).blk t).view.emb (ix2 (j 0) k)) = _
    refine congrArg (V c main_v29) (funext fun a => Fin.ext ?_)
    match a with
    | ⟨0, _⟩ =>
      show win2_0.index t (0 : Fin 2) * 10000 + 1 * (j 0).val = win2_3.index t (0 : Fin 2) * 10000 + 1 * (j 0).val
      omega
    | ⟨1, _⟩ =>
      show win2_0.index t (1 : Fin 2) * 64 + 1 * k.val = k.val
      omega
  have hw : ∀ k : Fin 64, iblk2 V c 1 t (ix2 k (j 1))
      = V c main_arg5 (ix2 k ((((cfg2.win 3).blk t).view.emb j) 1)) := fun k => by
    show V c main_arg5 (((cfg2.win 1).blk t).view.emb (ix2 k (j 1))) = _
    refine congrArg (V c main_arg5) (funext fun a => Fin.ext ?_)
    match a with
    | ⟨0, _⟩ =>
      show win2_1.index t (0 : Fin 2) * 64 + 1 * k.val = k.val
      omega
    | ⟨1, _⟩ =>
      show win2_1.index t (1 : Fin 2) * 64 + 1 * (j 1).val = win2_3.index t (1 : Fin 2) * 64 + 1 * (j 1).val
      omega
  have hb : iblk2 V c 2 t (ix1 (j 1)) = V c main_arg6 (ix1 ((((cfg2.win 3).blk t).view.emb j) 1)) := by
    show V c main_arg6 (((cfg2.win 2).blk t).view.emb (ix1 (j 1))) = _
    refine congrArg (V c main_arg6) (funext fun a => Fin.ext ?_)
    match a with
    | ⟨0, _⟩ =>
      show win2_2.index t (0 : Fin 1) * 64 + 1 * (j 1).val = win2_3.index t (1 : Fin 2) * 64 + 1 * (j 1).val
      omega
  rw [Finset.sum_congr rfl (fun k _ => by rw [hx k, hw k]), hb]
  rfl

/-- An index of the output array is in point `t`'s block iff each coordinate is in the block's range on its axis. -/
theorem mem_blk (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v30).slice (win2_3.rect t)).set ↔ _
  rw [View.set_slice_whole, Rect.mem_set_unit]
  exact Iff.rfl

/-- The ten blocks cover the output: row `r` is in block `r / 10000`. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 64 ≤ (i 1).val ∧ (i 1).val < win2_3.index t (1 : Fin 2) * 64 + 64
    omega

/-- The output array after the launch. -/
theorem final (c : Dev nD) :
    (dat2 V c).arrAt 3 cfg2.N
      = linRelu (M := 100000) (K := 64) (N := 64) (V c main_v29) (V c main_arg5) (V c main_arg6) :=
  (dat2 V c).arrAt_eq_of_cover 3 _ (fun t _ => flushed_eq V c t) (cover)

end Cert.KernelIdeal.Region2

end
-- ==== Proof.Region3.lean ====
/-
  The fourth kernel launch: `relu ((agg · wl + bl) + h · wr)` over 100000 rows of 64 columns, in ten blocks of 10000 rows.

  At grid point `t` the body loads rows `[10000 t, 10000 (t + 1))` of `agg` and of `h`, the whole of `wl`, `bl` and
  `wr`, and stores `max ((agg_blk · wl + bl) + h_blk · wr, 0)` to the same rows of the output.  An output entry
  `(P, q)` depends on row `P` of `agg` and of `h` only, and the ten blocks tile the output: after the launch the output
  array is `sageRelu agg h wl bl wr` of the arrays the launch found, entry by entry.
-/
import proofs.«164999_j39333310496986_1_alg».proof.Proof.Gen.KernelIdeal.Frame
import proofs.«164999_j39333310496986_1_alg».proof.Proof.LibPlainDot
import proofs.«164999_j39333310496986_1_alg».proof.Proof.LibDense
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.ShloMosaic.DenseLayer Idealize.SL.Sem
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a <;> rfl

/-- The body's stored value at entry `(p, q)` of a block: row `p` of the aggregate against column `q` of `wl`, plus
    the bias, plus row `p` of `h` against column `q` of `wr`, clamped below at zero. -/
theorem body_apply (x0 x1 : Vec Ideal S10000x64 .f32) (x2 x3 : Vec Ideal S64x64 .f32) (x4 : Vec Ideal S64 .f32)
    (p : Fin 10000) (q : Fin 64) :
    k3_pay1 x0 x1 x2 x3 x4 (ix2 p q)
      = max ((∑ k : Fin 64, x0 (ix2 p k) * x2 (ix2 k q) + x4 (ix1 q)) + ∑ k : Fin 64, x1 (ix2 p k) * x3 (ix2 k q)) zeroWord := by
  unfold k3_pay1
  show max ((FloatOps.matmul (F := Ideal) dot_S10000x64_S64x64_S10000x64_1_0_0_1_n_n none
        (truncf (F := Ideal) .bf16 (shapeCast S10000x64 x0 shapeCasts_S10000x64_S10000x64) bitsLt_bf16_f32)
        (truncf (F := Ideal) .bf16 x2 bitsLt_bf16_f32) (constant (F := Ideal) S10000x64 .f32 0x00000000#32) (ix2 p q)
      + broadcastTo S10000x64 (shapeCast S1x64 x4 shapeCasts_S64_S1x64) broadcasts_S1x64_S10000x64 (ix2 p q))
    + FloatOps.matmul (F := Ideal) dot_S10000x64_S64x64_S10000x64_1_0_0_1_n_n none
        (truncf (F := Ideal) .bf16 (shapeCast S10000x64 x1 shapeCasts_S10000x64_S10000x64) bitsLt_bf16_f32)
        (truncf (F := Ideal) .bf16 x3 bitsLt_bf16_f32) (constant (F := Ideal) S10000x64 .f32 0x00000000#32) (ix2 p q)) zeroWord = _
  rw [shapeCast_self x0, shapeCast_self x1,
    PlainDot.matmul_zero_apply dot_S10000x64_S64x64_S10000x64_1_0_0_1_n_n rfl none (truncf (F := Ideal) .bf16 x0 bitsLt_bf16_f32),
    PlainDot.matmul_zero_apply dot_S10000x64_S64x64_S10000x64_1_0_0_1_n_n rfl none (truncf (F := Ideal) .bf16 x1 bitsLt_bf16_f32),
    castRow_apply]
  rfl

theorem body_at (x0 x1 : Vec Ideal S10000x64 .f32) (x2 x3 : Vec Ideal S64x64 .f32) (x4 : Vec Ideal S64 .f32)
    (y : S10000x64.Idx) :
    k3_pay1 x0 x1 x2 x3 x4 y
      = max ((∑ k : Fin 64, x0 (ix2 (y 0) k) * x2 (ix2 k (y 1)) + x4 (ix1 (y 1)))
          + ∑ k : Fin 64, x1 (ix2 (y 0) k) * x3 (ix2 k (y 1))) zeroWord := by
  obtain ⟨p, q, rfl⟩ : ∃ (p : Fin 10000) (q : Fin 64), y = ix2 p q := ⟨y 0, y 1, eq_ix2 y⟩
  exact body_apply x0 x1 x2 x3 x4 p q

variable (V : (c : Dev nD) → (b : Ref sig .tc) → Buf (Elt Ideal) ((c : Thread nD τ).loc b))

/-- The printed index maps over the ten grid points: the rows of `agg` and of `h` move with the output's rows, the
    weights and the bias stay, and nothing is blocked along its columns. -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (1 : Fin 2) = 0 :=
  (by decide +kernel : ∀ t : Fin grid3.N, _)

/-- Every one of the ten row blocks is some grid point's. -/
theorem idx_onto : ∀ q0 : Fin 10, ∃ t : Fin cfg3.N, win3_5.index t = ![q0.val, 0] :=
  (by decide +kernel : ∀ q0 : Fin 10, ∃ t : Fin grid3.N, win3_5.index t = ![q0.val, 0])

set_option maxHeartbeats 1600000 in
/-- What grid point `t` writes back is block `t` of `sageRelu` of the arrays the launch found. -/
theorem flushed_eq (c : Dev nD) (t : Fin cfg3.N) :
    (dat3 V c).flushed 5 t = ((cfg3.win 5).blk t).view.read (Elt Ideal)
      (sageRelu (M := 100000) (K := 64) (N := 64) (V c main_v42) (V c main_v30) (V c main_arg10) (V c main_arg11) (V c main_arg12)) := by
  show (cfg3.win 5).cut (grid3.coords t) ((dat3 V c).after 5 t) = _
  rw [after3_5]
  unfold out3_5
  rw [View.canon_unit_zero hz]
  simp only [View.ld_unit_zero (S := S10000x64) hz, View.ld_unit_zero (S := S64x64) hz, View.ld_unit_zero (S := S64) hz1]
  obtain ⟨e0, e1, e2, e3, e4, e5, e6, e7, e8, e9⟩ := idx_facts t
  funext j
  refine (body_at (iblk3 V c 0 t) (iblk3 V c 1 t) (iblk3 V c 2 t) (iblk3 V c 4 t) (iblk3 V c 3 t) j).trans ?_
  have ha : ∀ k : Fin 64, iblk3 V c 0 t (ix2 (j 0) k)
      = V c main_v42 (ix2 ((((cfg3.win 5).blk t).view.emb j) 0) k) := fun k => by
    show V c main_v42 (((cfg3.win 0).blk t).view.emb (ix2 (j 0) k)) = _
    refine congrArg (V c main_v42) (funext fun a => Fin.ext ?_)
    match a with
    | ⟨0, _⟩ =>
      show win3_0.index t (0 : Fin 2) * 10000 + 1 * (j 0).val = win3_5.index t (0 : Fin 2) * 10000 + 1 * (j 0).val
      omega
    | ⟨1, _⟩ =>
      show win3_0.index t (1 : Fin 2) * 64 + 1 * k.val = k.val
      omega
  have hh : ∀ k : Fin 64, iblk3 V c 1 t (ix2 (j 0) k)
      = V c main_v30 (ix2 ((((cfg3.win 5).blk t).view.emb j) 0) k) := fun k => by
    show V c main_v30 (((cfg3.win 1).blk t).view.emb (ix2 (j 0) k)) = _
    refine congrArg (V c main_v30) (funext fun a => Fin.ext ?_)
    match a with
    | ⟨0, _⟩ =>
      show win3_1.index t (0 : Fin 2) * 10000 + 1 * (j 0).val = win3_5.index t (0 : Fin 2) * 10000 + 1 * (j 0).val
      omega
    | ⟨1, _⟩ =>
      show win3_1.index t (1 : Fin 2) * 64 + 1 * k.val = k.val
      omega
  have hwl : ∀ k : Fin 64, iblk3 V c 2 t (ix2 k (j 1))
      = V c main_arg10 (ix2 k ((((cfg3.win 5).blk t).view.emb j) 1)) := fun k => by
    show V c main_arg10 (((cfg3.win 2).blk t).view.emb (ix2 k (j 1))) = _
    refine congrArg (V c main_arg10) (funext fun a => Fin.ext ?_)
    match a with
    | ⟨0, _⟩ =>
      show win3_2.index t (0 : Fin 2) * 64 + 1 * k.val = k.val
      omega
    | ⟨1, _⟩ =>
      show win3_2.index t (1 : Fin 2) * 64 + 1 * (j 1).val = win3_5.index t (1 : Fin 2) * 64 + 1 * (j 1).val
      omega
  have hwr : ∀ k : Fin 64, iblk3 V c 4 t (ix2 k (j 1))
      = V c main_arg12 (ix2 k ((((cfg3.win 5).blk t).view.emb j) 1)) := fun k => by
    show V c main_arg12 (((cfg3.win 4).blk t).view.emb (ix2 k (j 1))) = _
    refine congrArg (V c main_arg12) (funext fun a => Fin.ext ?_)
    match a with
    | ⟨0, _⟩ =>
      show win3_4.index t (0 : Fin 2) * 64 + 1 * k.val = k.val
      omega
    | ⟨1, _⟩ =>
      show win3_4.index t (1 : Fin 2) * 64 + 1 * (j 1).val = win3_5.index t (1 : Fin 2) * 64 + 1 * (j 1).val
      omega
  have hbl : iblk3 V c 3 t (ix1 (j 1)) = V c main_arg11 (ix1 ((((cfg3.win 5).blk t).view.emb j) 1)) := by
    show V c main_arg11 (((cfg3.win 3).blk t).view.emb (ix1 (j 1))) = _
    refine congrArg (V c main_arg11) (funext fun a => Fin.ext ?_)
    match a with
    | ⟨0, _⟩ =>
      show win3_3.index t (0 : Fin 1) * 64 + 1 * (j 1).val = win3_5.index t (1 : Fin 2) * 64 + 1 * (j 1).val
      omega
  exact congrArg₂ max (congrArg₂ (· + ·) (congrArg₂ (· + ·) (Finset.sum_congr rfl fun k _ => by rw [ha k, hwl k]) hbl)
    (Finset.sum_congr rfl fun k _ => by rw [hh k, hwr k])) rfl

/-- An index of the output array is in point `t`'s block iff each coordinate is in the block's range on its axis. -/
theorem mem_blk (t : Fin cfg3.N) (i : S100000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v43).slice (win3_5.rect t)).set ↔ _
  rw [View.set_slice_whole, Rect.mem_set_unit]
  exact Iff.rfl

/-- The ten blocks cover the output: row `r` is in block `r / 10000`. -/
theorem cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ := idx_onto ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk]
  intro a
  match a with
  | ⟨0, _⟩ =>
    show win3_5.index t (0 : Fin 2) * 10000 ≤ (i 0).val ∧ (i 0).val < win3_5.index t (0 : Fin 2) * 10000 + 10000
    omega
  | ⟨1, _⟩ =>
    show win3_5.index t (1 : Fin 2) * 64 ≤ (i 1).val ∧ (i 1).val < win3_5.index t (1 : Fin 2) * 64 + 64
    omega

/-- The output array after the launch. -/
theorem final (c : Dev nD) :
    (dat3 V c).arrAt 5 cfg3.N
      = sageRelu (M := 100000) (K := 64) (N := 64) (V c main_v42) (V c main_v30) (V c main_arg10) (V c main_arg11) (V c main_arg12) :=
  (dat3 V c).arrAt_eq_of_cover 5 _ (fun t _ => flushed_eq V c t) (cover)

end Cert.KernelIdeal.Region3

end
-- ==== Proof.Region4.lean ====
/-
  The fifth kernel launch: the edge score `tanh (relu (cat · w1 + b1) · w2 + b2)` over 1000000 rows, in a hundred
  blocks of 10000 rows.

  At grid point `t` the body loads rows `[10000 t, 10000 (t + 1))` of `cat` (128 columns), the whole of `w1`, `b1`,
  `w2` (one column) and `b2` (one entry), and stores the scores of those rows.  A score depends on its own row of
  `cat` only, and the hundred blocks tile the output column: after the launch the output array is `mlpScore` of the
  arrays the launch found, entry by entry.
-/
import proofs.«164999_j39333310496986_1_alg».proof.Proof.Gen.KernelIdeal.Frame
import proofs.«164999_j39333310496986_1_alg».proof.Proof.LibPlainDot
import proofs.«164999_j39333310496986_1_alg».proof.Proof.LibDense
import Idealize.ShloMosaic.Lib.Pipeline.Value

set_option maxRecDepth 16384

noncomputable section

namespace Cert.KernelIdeal.Region4

open Cert.KernelIdeal Cert.KernelIdeal.Gen
open Idealize.ShloMosaic Idealize.ShloMosaic.TcCoe Idealize.ShloMosaic.ValueIdx Idealize.ShloMosaic.DenseLayer Idealize.SL.Sem
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a <;> rfl

/-- The hidden layer of a block: `relu (cat_blk · w1 + b1)`, as the body computes it. -/
def hidden (x0 : Vec Ideal S10000x128 .f32) (x1 : Vec Ideal S128x64 .f32) (x2 : Vec Ideal S64 .f32) :
    FVec Ideal S10000x64 .f32 :=
  maximumf (addf (matmul (F := Ideal) dot_S10000x128_S128x64_S10000x64_1_0_0_1_n_n none
      (truncf (F := Ideal) .bf16 (shapeCast S10000x128 x0 shapeCasts_S10000x128_S10000x128) bitsLt_bf16_f32)
      (truncf (F := Ideal) .bf16 x1 bitsLt_bf16_f32) (constant (F := Ideal) S10000x64 .f32 0x00000000#32))
    (broadcastTo S10000x64 (shapeCast S1x64 x2 shapeCasts_S64_S1x64) broadcasts_S1x64_S10000x64))
    (broadcast S10000x64 (Scalar.ofBits (F := Ideal) .f32 0x00000000#32))

theorem hidden_apply (x0 : Vec Ideal S10000x128 .f32) (x1 : Vec Ideal S128x64 .f32) (x2 : Vec Ideal S64 .f32)
    (p : Fin 10000) (q : Fin 64) :
    hidden x0 x1 x2 (ix2 p q) = max (∑ k : Fin 128, x0 (ix2 p k) * x1 (ix2 k q) + x2 (ix1 q)) zeroWord := by
  unfold hidden
  show max (FloatOps.matmul (F := Ideal) dot_S10000x128_S128x64_S10000x64_1_0_0_1_n_n none
      (truncf (F := Ideal) .bf16 (shapeCast S10000x128 x0 shapeCasts_S10000x128_S10000x128) bitsLt_bf16_f32)
      (truncf (F := Ideal) .bf16 x1 bitsLt_bf16_f32) (constant (F := Ideal) S10000x64 .f32 0x00000000#32) (ix2 p q)
    + broadcastTo S10000x64 (shapeCast S1x64 x2 shapeCasts_S64_S1x64) broadcasts_S1x64_S10000x64 (ix2 p q)) zeroWord = _
  rw [shapeCast_self, PlainDot.matmul_zero_apply dot_S10000x128_S128x64_S10000x64_1_0_0_1_n_n rfl, castRow_apply]
  rfl

/-- The body's stored value at entry `(p, u)` of a block: the hidden layer's row `p` against the one column of `w2`,
    plus the one bias, through `tanh`. -/
theorem body_apply (x0 : Vec Ideal S10000x128 .f32) (x1 : Vec Ideal S128x64 .f32) (x2 : Vec Ideal S64 .f32)
    (x3 : Vec Ideal S64x1 .f32) (x4 : Vec Ideal S1 .f32) (p : Fin 10000) (u : Fin 1) :
    k4_pay1 x0 x1 x2 x3 x4 (ix2 p u)
      = Ideal.tanh (∑ j : Fin 64, max (∑ k : Fin 128, x0 (ix2 p k) * x1 (ix2 k j) + x2 (ix1 j)) zeroWord * x3 (ix2 j u)
          + x4 (ix1 u)) := by
  unfold k4_pay1
  show Ideal.tanh (FloatOps.matmul (F := Ideal) dot_S10000x64_S64x1_S10000x1_1_0_0_1_n_n none
      (truncf (F := Ideal) .bf16 (hidden x0 x1 x2) bitsLt_bf16_f32) (truncf (F := Ideal) .bf16 x3 bitsLt_bf16_f32)
      (constant (F := Ideal) S10000x1 .f32 0x00000000#32) (ix2 p u)
    + broadcastTo S10000x1 (shapeCast S1x1 x4 shapeCasts_S1_S1x1) broadcasts_S1x1_S10000x1 (ix2 p u)) = _
  rw [PlainDot.matmul_zero_apply dot_S10000x64_S64x1_S10000x1_1_0_0_1_n_n rfl, castRow_apply]
  exact congrArg Ideal.tanh (congrArg₂ (· + ·)
    (Finset.sum_congr rfl fun j _ => congrArg₂ (· * ·) (hidden_apply x0 x1 x2 p j) rfl) rfl)

theorem body_at (x0 : Vec Ideal S10000x128 .f32) (x1 : Vec Ideal S128x64 .f32) (x2 : Vec Ideal S64 .f32)
    (x3 : Vec Ideal S64x1 .f32) (x4 : Vec Ideal S1 .f32) (y : S10000x1.Idx) :
    k4_pay1 x0 x1 x2 x3 x4 y
      = Ideal.tanh (∑ j : Fin 64, max (∑ k : Fin 128, x0 (ix2 (y 0) k) * x1 (ix2 k j) + x2 (ix1 j)) zeroWord * x3 (ix2 j (y 1))
          + x4 (ix1 (y 1))) := by
  obtain ⟨p, u, rfl⟩ : ∃ (p : Fin 10000) (u : Fin 1), y = ix2 p u := ⟨y 0, y 1, eq_ix2 y⟩
  exact body_apply x0 x1 x2 x3 x4 p u

variable (V : (c : Dev nD) → (b : Ref sig .tc) → Buf (Elt Ideal) ((c : Thread nD τ).loc b))

/-- The printed index maps over the hundred grid points: the rows of `cat` move with the output's rows, the weights
    and the biases stay, and nothing is blocked along its columns. -/
theorem idx_facts : ∀ t : Fin cfg4.N,
    win4_0.index t (0 : Fin 2) = win4_5.index t (0 : Fin 2) ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (1 : Fin 2) = 0 :=
  (by decide +kernel : ∀ t : Fin grid4.N, _)

/-- Every one of the hundred row blocks is some grid point's. -/
theorem idx_onto : ∀ q0 : Fin 100, ∃ t : Fin cfg4.N, win4_5.index t = ![q0.val, 0] :=
  (by decide +kernel : ∀ q0 : Fin 100, ∃ t : Fin grid4.N, win4_5.index t = ![q0.val, 0])

set_option maxHeartbeats 1600000 in
/-- What grid point `t` writes back is block `t` of `mlpScore` of the arrays the launch found. -/
theorem flushed_eq (c : Dev nD) (t : Fin cfg4.N) :
    (dat4 V c).flushed 5 t = ((cfg4.win 5).blk t).view.read (Elt Ideal)
      (mlpScore (M := 1000000) (K := 128) (H := 64) (N := 1) (V c main_v62) (V c main_arg13) (V c main_arg14)
        (V c main_arg15) (V c main_arg16)) := by
  show (cfg4.win 5).cut (grid4.coords t) ((dat4 V c).after 5 t) = _
  rw [after4_5]
  unfold out4_5
  rw [View.canon_unit_zero hz]
  simp only [View.ld_unit_zero (S := S10000x128) hz, View.ld_unit_zero (S := S128x64) hz, View.ld_unit_zero (S := S64) hz1,
    View.ld_unit_zero (S := S64x1) hz, View.ld_unit_zero (S := S1) hz1]
  obtain ⟨e0, e1, e2, e3, e4, e5, e6, e7, e8⟩ := idx_facts t
  funext j
  refine (body_at (iblk4 V c 0 t) (iblk4 V c 1 t) (iblk4 V c 2 t) (iblk4 V c 3 t) (iblk4 V c 4 t) j).trans ?_
  have hc : ∀ k : Fin 128, iblk4 V c 0 t (ix2 (j 0) k)
      = V c main_v62 (ix2 ((((cfg4.win 5).blk t).view.emb j) 0) k) := fun k => by
    show V c main_v62 (((cfg4.win 0).blk t).view.emb (ix2 (j 0) k)) = _
    refine congrArg (V c main_v62) (funext fun a => Fin.ext ?_)
    match a with
    | ⟨0, _⟩ =>
      show win4_0.index t (0 : Fin 2) * 10000 + 1 * (j 0).val = win4_5.index t (0 : Fin 2) * 10000 + 1 * (j 0).val
      omega
    | ⟨1, _⟩ =>
      show win4_0.index t (1 : Fin 2) * 128 + 1 * k.val = k.val
      omega
  have hw1 : ∀ (k : Fin 128) (q : Fin 64), iblk4 V c 1 t (ix2 k q) = V c main_arg13 (ix2 k q) := fun k q => by
    show V c main_arg13 (((cfg4.win 1).blk t).view.emb (ix2 k q)) = _
    refine congrArg (V c main_arg13) (funext fun a => Fin.ext ?_)
    match a with
    | ⟨0, _⟩ =>
      show win4_1.index t (0 : Fin 2) * 128 + 1 * k.val = k.val
      omega
    | ⟨1, _⟩ =>
      show win4_1.index t (1 : Fin 2) * 64 + 1 * q.val = q.val
      omega
  have hb1 : ∀ q : Fin 64, iblk4 V c 2 t (ix1 q) = V c main_arg14 (ix1 q) := fun q => by
    show V c main_arg14 (((cfg4.win 2).blk t).view.emb (ix1 q)) = _
    refine congrArg (V c main_arg14) (funext fun a => Fin.ext ?_)
    match a with
    | ⟨0, _⟩ =>
      show win4_2.index t (0 : Fin 1) * 64 + 1 * q.val = q.val
      omega
  have hw2 : ∀ q : Fin 64, iblk4 V c 3 t (ix2 q (j 1))
      = V c main_arg15 (ix2 q ((((cfg4.win 5).blk t).view.emb j) 1)) := fun q => by
    show V c main_arg15 (((cfg4.win 3).blk t).view.emb (ix2 q (j 1))) = _
    refine congrArg (V c main_arg15) (funext fun a => Fin.ext ?_)
    match a with
    | ⟨0, _⟩ =>
      show win4_3.index t (0 : Fin 2) * 64 + 1 * q.val = q.val
      omega
    | ⟨1, _⟩ =>
      show win4_3.index t (1 : Fin 2) * 1 + 1 * (j 1).val = win4_5.index t (1 : Fin 2) * 1 + 1 * (j 1).val
      omega
  have hb2 : iblk4 V c 4 t (ix1 (j 1)) = V c main_arg16 (ix1 ((((cfg4.win 5).blk t).view.emb j) 1)) := by
    show V c main_arg16 (((cfg4.win 4).blk t).view.emb (ix1 (j 1))) = _
    refine congrArg (V c main_arg16) (funext fun a => Fin.ext ?_)
    match a with
    | ⟨0, _⟩ =>
      show win4_4.index t (0 : Fin 1) * 1 + 1 * (j 1).val = win4_5.index t (1 : Fin 2) * 1 + 1 * (j 1).val
      omega
  exact congrArg Ideal.tanh (congrArg₂ (· + ·)
    (Finset.sum_congr rfl fun q _ => congrArg₂ (· * ·)
      (congrArg₂ max (congrArg₂ (· + ·) (Finset.sum_congr rfl fun k _ => by rw [hc k, hw1 k q]) (hb1 q)) rfl) (hw2 q)) hb2)

/-- An index of the output array is in point `t`'s block iff each coordinate is in the block's range on its axis. -/
theorem mem_blk (t : Fin cfg4.N) (i : S1000000x1.Idx) :
    i ∈ ((cfg4.win 5).blk t).view.set ↔ ∀ a : Fin 2, win4_5.index t a * S10000x1.size a ≤ (i a).val
      ∧ (i a).val < win4_5.index t a * S10000x1.size a + S10000x1.size a := by
  show i ∈ ((View.whole main_v63).slice (win4_5.rect t)).set ↔ _
  rw [View.set_slice_whole, Rect.mem_set_unit]
  exact Iff.rfl

/-- The hundred blocks cover the output: row `r` is in block `r / 10000`. -/
theorem cover (i : S1000000x1.Idx) :
    ∃ t : Fin cfg4.N, (cfg4.win 5).flush t = true ∧ i ∈ ((cfg4.win 5).blk t).view.set := by
  have hi0 : (i 0).val < 1000000 := (i 0).isLt
  have hi1 : (i 1).val < 1 := (i 1).isLt
  obtain ⟨t, ht⟩ := idx_onto ⟨(i 0).val / 10000, by omega⟩
  have q0 : win4_5.index t (0 : Fin 2) = (i 0).val / 10000 := congrFun ht 0
  have q1 : win4_5.index t (1 : Fin 2) = 0 := congrFun ht 1
  refine ⟨t, flush4_5 t, ?_⟩
  rw [mem_blk]
  intro a
  match a with
  | ⟨0, _⟩ =>
    show win4_5.index t (0 : Fin 2) * 10000 ≤ (i 0).val ∧ (i 0).val < win4_5.index t (0 : Fin 2) * 10000 + 10000
    omega
  | ⟨1, _⟩ =>
    show win4_5.index t (1 : Fin 2) * 1 ≤ (i 1).val ∧ (i 1).val < win4_5.index t (1 : Fin 2) * 1 + 1
    omega

/-- The output array after the launch. -/
theorem final (c : Dev nD) :
    (dat4 V c).arrAt 5 cfg4.N
      = mlpScore (M := 1000000) (K := 128) (H := 64) (N := 1) (V c main_v62) (V c main_arg13) (V c main_arg14)
          (V c main_arg15) (V c main_arg16) :=
  (dat4 V c).arrAt_eq_of_cover 5 _ (fun t _ => flushed_eq V c t) (cover)

end Cert.KernelIdeal.Region4

end
-- ==== Proof.Net.lean ====
/-
  The network both programs compute, as one function of the seventeen argument arrays.

  Message passing: `src` and `dst` are the two rows of the edge index; `deg` counts the edges into each node and
  `invDeg` is `1 / max (deg, 1)` where `deg > 0` and `0` elsewhere.  `agg h` gathers the rows `h[src]` (a negative
  index wraps by the number of nodes), adds them up by `dst` and scales row `n` by `invDeg n`.  The layers are

      h1 = relu (x · lin1_w + lin1_b)                       h2 = relu ((agg h1 · wl1 + bl1) + h1 · wr1)
      h3 = relu (h2 · lin2_w + lin2_b)                      h4 = relu ((agg h3 · wl2 + bl2) + h3 · wr2)

  and the score of a move edge `(a, b)` is `tanh (relu ([h4[a], h4[b]] · w1 + b1) · w2 + b2)`.

  The gathers, the scatter-adds and the concatenation are kept as the host operations they are: both programs apply
  the same ones to the same operands, so they are never opened.  The dense layers are stated entry by entry
  (`linRelu`, `sageRelu`, `mlpPre`), and `outHost` is the same network with each dense layer spelt as the host's
  chain of `dot_general`, broadcasts, additions and a maximum; `outHost_eq` joins the two.
-/
import proofs.«164999_j39333310496986_1_alg».proof.ReferenceIdeal
import proofs.«164999_j39333310496986_1_alg».proof.Proof.Gen.ReferenceIdeal
import proofs.«164999_j39333310496986_1_alg».proof.Proof.LibPlainDot
import proofs.«164999_j39333310496986_1_alg».proof.Proof.LibDense
import Idealize.ShloMosaic.PureOps.Ideal

set_option maxRecDepth 16384

noncomputable section

namespace Cert.Net

open Cert.ReferenceIdeal Cert.ReferenceIdeal.Gen Idealize.ShloMosaic Idealize.ShloMosaic.ValueIdx Idealize.ShloMosaic.DenseLayer

/-- A float array at the ideal instance. -/
abbrev F32 (s : Shape) := FVec Ideal s .f32
/-- An index array. -/
abbrev I32 (s : Shape) := IVec s 32

/-! ## The glue -/

def src (ei : I32 S2x3200000) : I32 S3200000 :=
  shapeCast S3200000 (extractStridedSlice S1x3200000 ![0, 0] ei slices_S2x3200000_S1x3200000_0_0) shapeCasts_S1x3200000_S3200000
def dst (ei : I32 S2x3200000) : I32 S3200000 :=
  shapeCast S3200000 (extractStridedSlice S1x3200000 ![1, 0] ei slices_S2x3200000_S1x3200000_1_0) shapeCasts_S1x3200000_S3200000
def msrc (mei : I32 S2x1000000) : I32 S1000000 :=
  shapeCast S1000000 (extractStridedSlice S1x1000000 ![0, 0] mei slices_S2x1000000_S1x1000000_0_0) shapeCasts_S1x1000000_S1000000
def mdst (mei : I32 S2x1000000) : I32 S1000000 :=
  shapeCast S1000000 (extractStridedSlice S1x1000000 ![1, 0] mei slices_S2x1000000_S1x1000000_1_0) shapeCasts_S1x1000000_S1000000

def zerosN : F32 S100000 := broadcastInDim S100000 ![] bcast_S_S100000 (constant (F := Ideal) S_ .f32 0x00000000#32)
def onesN : F32 S100000 := broadcastInDim S100000 ![] bcast_S_S100000 (constant (F := Ideal) S_ .f32 0x3F800000#32)

/-- The number of edges into each node. -/
def deg (ei : I32 S2x3200000) : F32 S100000 :=
  Host.scatterAdd (F := Ideal) scatter_S100000_S3200000x1_S3200000_n_0_0_1 zerosN
    (broadcastInDim S3200000x1 ![0] bcast_S3200000_S3200000x1_0 (dst ei))
    (broadcastInDim S3200000 ![] bcast_S_S3200000 (constant (F := Ideal) S_ .f32 0x3F800000#32))

/-- `1 / max (deg, 1)` where `deg > 0`, else `0`, as a column. -/
def invDeg (ei : I32 S2x3200000) : F32 S100000x1 :=
  broadcastInDim S100000x1 ![0] bcast_S100000_S100000x1_0
    (select (cmpf (F := Ideal) .ogt (deg ei) zerosN) (Host.divf (F := Ideal) onesN (maximumf (F := Ideal) (deg ei) onesN)) zerosN)

/-- A negative index wraps by the number of nodes; as a column of start indices. -/
def wrapE (v : I32 S3200000) : I32 S3200000x1 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)
def wrapM (v : I32 S1000000) : I32 S1000000x1 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)

/-- Mean aggregation: gather `h[src]`, add up by `dst`, scale each row by `invDeg`. -/
def agg (ei : I32 S2x3200000) (h : F32 S100000x64) : F32 S100000x64 :=
  mulf (F := Ideal)
    (Host.scatterAdd (F := Ideal) scatter_S100000x64_S3200000x1_S3200000x64_1_0_0_1
      (broadcastInDim S100000x64 ![] bcast_S_S100000x64 (constant (F := Ideal) S_ .f32 0x00000000#32))
      (broadcastInDim S3200000x1 ![0] bcast_S3200000_S3200000x1_0 (dst ei))
      (Host.gather gather_S100000x64_S3200000x1_S3200000x64_1_0_n_n_0_1_164 h (wrapE (src ei))))
    (broadcastInDim S100000x64 ![0, 1] bcast_S100000x1_S100000x64_0_1 (invDeg ei))

/-- The two end points' rows of `h`, side by side. -/
def cat (mei : I32 S2x1000000) (h : F32 S100000x64) : F32 S1000000x128 :=
  concatenate S1000000x128 1
    [⟨S1000000x64, Host.gather gather_S100000x64_S1000000x1_S1000000x64_1_0_n_n_0_1_164 h (wrapM (msrc mei))⟩,
     ⟨S1000000x64, Host.gather gather_S100000x64_S1000000x1_S1000000x64_1_0_n_n_0_1_164 h (wrapM (mdst mei))⟩]
    concatenates_S1000000x64_S1000000x64_S1000000x128_d1

/-! ## The network over the entry-wise layers -/

/-- The first layer's nodes. -/
abbrev h1 (x : F32 S100000x128) (lin1w : F32 S128x64) (lin1b : F32 S64) : F32 S100000x64 :=
  linRelu (M := 100000) (K := 128) (N := 64) x lin1w lin1b
/-- After the first message-passing step. -/
abbrev h2 (x : F32 S100000x128) (ei : I32 S2x3200000) (lin1w : F32 S128x64) (lin1b : F32 S64)
    (wl1 : F32 S64x64) (bl1 : F32 S64) (wr1 : F32 S64x64) : F32 S100000x64 :=
  sageRelu (M := 100000) (K := 64) (N := 64) (agg ei (h1 x lin1w lin1b)) (h1 x lin1w lin1b) wl1 bl1 wr1
/-- The second dense layer. -/
abbrev h3 (x : F32 S100000x128) (ei : I32 S2x3200000) (lin1w : F32 S128x64) (lin1b : F32 S64)
    (wl1 : F32 S64x64) (bl1 : F32 S64) (wr1 : F32 S64x64) (lin2w : F32 S64x64) (lin2b : F32 S64) : F32 S100000x64 :=
  linRelu (M := 100000) (K := 64) (N := 64) (h2 x ei lin1w lin1b wl1 bl1 wr1) lin2w lin2b
/-- After the second message-passing step. -/
abbrev h4 (x : F32 S100000x128) (ei : I32 S2x3200000) (lin1w : F32 S128x64) (lin1b : F32 S64)
    (wl1 : F32 S64x64) (bl1 : F32 S64) (wr1 : F32 S64x64) (lin2w : F32 S64x64) (lin2b : F32 S64)
    (wl2 : F32 S64x64) (bl2 : F32 S64) (wr2 : F32 S64x64) : F32 S100000x64 :=
  sageRelu (M := 100000) (K := 64) (N := 64) (agg ei (h3 x ei lin1w lin1b wl1 bl1 wr1 lin2w lin2b))
    (h3 x ei lin1w lin1b wl1 bl1 wr1 lin2w lin2b) wl2 bl2 wr2

/-- The scores of the move edges from the last node layer `h`. -/
def score (mei : I32 S2x1000000) (h : F32 S100000x64) (w1 : F32 S128x64) (b1 : F32 S64) (w2 : F32 S64x1) (b2 : F32 S1) :
    F32 S1000000 :=
  Host.tanh (F := Ideal) (shapeCast S1000000
    (mlpPre (M := 1000000) (K := 128) (H := 64) (N := 1) (cat mei h) w1 b1 w2 b2) shapeCasts_S1000000x1_S1000000)

def out (x : F32 S100000x128) (ei : I32 S2x3200000) (mei : I32 S2x1000000) (lin1w : F32 S128x64) (lin1b : F32 S64)
    (lin2w : F32 S64x64) (lin2b : F32 S64) (wl1 : F32 S64x64) (bl1 : F32 S64) (wr1 : F32 S64x64)
    (wl2 : F32 S64x64) (bl2 : F32 S64) (wr2 : F32 S64x64) (w1 : F32 S128x64) (b1 : F32 S64) (w2 : F32 S64x1) (b2 : F32 S1) :
    F32 S1000000 :=
  score mei (h4 x ei lin1w lin1b wl1 bl1 wr1 lin2w lin2b wl2 bl2 wr2) w1 b1 w2 b2

/-! ## The host's dense chains -/

def hostLin1 (x : F32 S100000x128) (w : F32 S128x64) (b : F32 S64) : F32 S100000x64 :=
  maximumf (F := Ideal) (addf (F := Ideal) (Host.dotGeneral (F := Ideal) dot_S100000x128_S128x64_S100000x64_1_0_0_1_n_n none x w)
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

def hostLin2 (h : F32 S100000x64) (w : F32 S64x64) (b : F32 S64) : F32 S100000x64 :=
  maximumf (F := Ideal) (addf (F := Ideal) (Host.dotGeneral (F := Ideal) dot_S100000x64_S64x64_S100000x64_1_0_0_1_n_n none h w)
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

def hostSage (a h : F32 S100000x64) (wl : F32 S64x64) (bl : F32 S64) (wr : F32 S64x64) : F32 S100000x64 :=
  maximumf (F := Ideal) (addf (F := Ideal)
      (addf (F := Ideal) (Host.dotGeneral (F := Ideal) dot_S100000x64_S64x64_S100000x64_1_0_0_1_n_n none a wl)
        (broadcastInDim S100000x64 ![0, 1] bcast_S1x64_S100000x64_0_1 (broadcastInDim S1x64 ![1] bcast_S64_S1x64_1 bl)))
      (Host.dotGeneral (F := Ideal) dot_S100000x64_S64x64_S100000x64_1_0_0_1_n_n none h wr))
    (broadcastInDim S100000x64 ![] bcast_S_S100000x64 (constant (F := Ideal) S_ .f32 0x00000000#32))

def hostMlp (c : F32 S1000000x128) (w1 : F32 S128x64) (b1 : F32 S64) (w2 : F32 S64x1) (b2 : F32 S1) : F32 S1000000x1 :=
  addf (F := Ideal) (Host.dotGeneral (F := Ideal) dot_S1000000x64_S64x1_S1000000x1_1_0_0_1_n_n none
      (maximumf (F := Ideal) (addf (F := Ideal) (Host.dotGeneral (F := Ideal) dot_S1000000x128_S128x64_S1000000x64_1_0_0_1_n_n none c w1)
          (broadcastInDim S1000000x64 ![0, 1] bcast_S1x64_S1000000x64_0_1 (broadcastInDim S1x64 ![1] bcast_S64_S1x64_1 b1)))
        (broadcastInDim S1000000x64 ![] bcast_S_S1000000x64 (constant (F := Ideal) S_ .f32 0x00000000#32))) w2)
    (broadcastInDim S1000000x1 ![0, 1] bcast_S1x1_S1000000x1_0_1 (broadcastInDim S1x1 ![1] bcast_S1_S1x1_1 b2))

def outHost (x : F32 S100000x128) (ei : I32 S2x3200000) (mei : I32 S2x1000000) (lin1w : F32 S128x64) (lin1b : F32 S64)
    (lin2w : F32 S64x64) (lin2b : F32 S64) (wl1 : F32 S64x64) (bl1 : F32 S64) (wr1 : F32 S64x64)
    (wl2 : F32 S64x64) (bl2 : F32 S64) (wr2 : F32 S64x64) (w1 : F32 S128x64) (b1 : F32 S64) (w2 : F32 S64x1) (b2 : F32 S1) :
    F32 S1000000 :=
  let h1 : F32 S100000x64 := hostLin1 x lin1w lin1b
  let h2 : F32 S100000x64 := hostSage (agg ei h1) h1 wl1 bl1 wr1
  let h3 : F32 S100000x64 := hostLin2 h2 lin2w lin2b
  let h4 : F32 S100000x64 := hostSage (agg ei h3) h3 wl2 bl2 wr2
  Host.tanh (F := Ideal) (shapeCast S1000000 (hostMlp (cat mei h4) w1 b1 w2 b2) shapeCasts_S1000000x1_S1000000)

/-! ## The host's chains are the entry-wise layers -/

theorem zero_splat {s : Shape} (h : (S_ : Shape).BroadcastsInDim s ![]) (i : s.Idx) :
    broadcastInDim s ![] h (constant (F := Ideal) S_ .f32 0x00000000#32) i = zeroWord := rfl

theorem hostLin1_eq (x : F32 S100000x128) (w : F32 S128x64) (b : F32 S64) :
    hostLin1 x w b = linRelu (M := 100000) (K := 128) (N := 64) x w b := by
  funext i
  obtain ⟨p, q, rfl⟩ : ∃ (p : Fin 100000) (q : Fin 64), i = ix2 p q := ⟨i 0, i 1, eq_ix2 i⟩
  unfold hostLin1
  show max (FloatOps.dotGeneral (F := Ideal) dot_S100000x128_S128x64_S100000x64_1_0_0_1_n_n none _ x w (ix2 p q)
    + broadcastInDim S100000x64 ![0, 1] bcast_S1x64_S100000x64_0_1 (broadcastInDim S1x64 ![1] bcast_S64_S1x64_1 b) (ix2 p q)) zeroWord = _
  rw [PlainDot.dotGeneral_apply dot_S100000x128_S128x64_S100000x64_1_0_0_1_n_n rfl, inDimRow_apply]
  rfl

theorem hostLin2_eq (h : F32 S100000x64) (w : F32 S64x64) (b : F32 S64) :
    hostLin2 h w b = linRelu (M := 100000) (K := 64) (N := 64) h w b := by
  funext i
  obtain ⟨p, q, rfl⟩ : ∃ (p : Fin 100000) (q : Fin 64), i = ix2 p q := ⟨i 0, i 1, eq_ix2 i⟩
  unfold hostLin2
  show max (FloatOps.dotGeneral (F := Ideal) dot_S100000x64_S64x64_S100000x64_1_0_0_1_n_n none _ h w (ix2 p q)
    + broadcastInDim S100000x64 ![0, 1] bcast_S1x64_S100000x64_0_1 (broadcastInDim S1x64 ![1] bcast_S64_S1x64_1 b) (ix2 p q)) zeroWord = _
  rw [PlainDot.dotGeneral_apply dot_S100000x64_S64x64_S100000x64_1_0_0_1_n_n rfl, inDimRow_apply]
  rfl

theorem hostSage_eq (a h : F32 S100000x64) (wl : F32 S64x64) (bl : F32 S64) (wr : F32 S64x64) :
    hostSage a h wl bl wr = sageRelu (M := 100000) (K := 64) (N := 64) a h wl bl wr := by
  funext i
  obtain ⟨p, q, rfl⟩ : ∃ (p : Fin 100000) (q : Fin 64), i = ix2 p q := ⟨i 0, i 1, eq_ix2 i⟩
  unfold hostSage
  show max ((FloatOps.dotGeneral (F := Ideal) dot_S100000x64_S64x64_S100000x64_1_0_0_1_n_n none _ a wl (ix2 p q)
      + broadcastInDim S100000x64 ![0, 1] bcast_S1x64_S100000x64_0_1 (broadcastInDim S1x64 ![1] bcast_S64_S1x64_1 bl) (ix2 p q))
    + FloatOps.dotGeneral (F := Ideal) dot_S100000x64_S64x64_S100000x64_1_0_0_1_n_n none _ h wr (ix2 p q)) zeroWord = _
  rw [PlainDot.dotGeneral_apply dot_S100000x64_S64x64_S100000x64_1_0_0_1_n_n rfl none _ a wl,
    PlainDot.dotGeneral_apply dot_S100000x64_S64x64_S100000x64_1_0_0_1_n_n rfl none _ h wr, inDimRow_apply]
  rfl

theorem hostMlp_eq (c : F32 S1000000x128) (w1 : F32 S128x64) (b1 : F32 S64) (w2 : F32 S64x1) (b2 : F32 S1) :
    hostMlp c w1 b1 w2 b2 = mlpPre (M := 1000000) (K := 128) (H := 64) (N := 1) c w1 b1 w2 b2 := by
  funext i
  obtain ⟨p, u, rfl⟩ : ∃ (p : Fin 1000000) (u : Fin 1), i = ix2 p u := ⟨i 0, i 1, eq_ix2 i⟩
  have hid : ∀ j : Fin 64,
      maximumf (F := Ideal) (addf (F := Ideal) (Host.dotGeneral (F := Ideal) dot_S1000000x128_S128x64_S1000000x64_1_0_0_1_n_n none c w1)
          (broadcastInDim S1000000x64 ![0, 1] bcast_S1x64_S1000000x64_0_1 (broadcastInDim S1x64 ![1] bcast_S64_S1x64_1 b1)))
        (broadcastInDim S1000000x64 ![] bcast_S_S1000000x64 (constant (F := Ideal) S_ .f32 0x00000000#32)) (ix2 p j)
      = linRelu (M := 1000000) (K := 128) (N := 64) c w1 b1 (ix2 p j) := fun j => by
    show max (FloatOps.dotGeneral (F := Ideal) dot_S1000000x128_S128x64_S1000000x64_1_0_0_1_n_n none _ c w1 (ix2 p j)
      + broadcastInDim S1000000x64 ![0, 1] bcast_S1x64_S1000000x64_0_1 (broadcastInDim S1x64 ![1] bcast_S64_S1x64_1 b1) (ix2 p j)) zeroWord = _
    rw [PlainDot.dotGeneral_apply dot_S1000000x128_S128x64_S1000000x64_1_0_0_1_n_n rfl, inDimRow_apply]
    rfl
  unfold hostMlp
  show FloatOps.dotGeneral (F := Ideal) dot_S1000000x64_S64x1_S1000000x1_1_0_0_1_n_n none _ _ w2 (ix2 p u)
    + broadcastInDim S1000000x1 ![0, 1] bcast_S1x1_S1000000x1_0_1 (broadcastInDim S1x1 ![1] bcast_S1_S1x1_1 b2) (ix2 p u) = _
  rw [PlainDot.dotGeneral_apply dot_S1000000x64_S64x1_S1000000x1_1_0_0_1_n_n rfl, inDimRow_apply]
  exact congrArg₂ (· + ·) (Finset.sum_congr rfl fun j _ => congrArg₂ (· * ·) (hid j) rfl) rfl

theorem outHost_eq (x : F32 S100000x128) (ei : I32 S2x3200000) (mei : I32 S2x1000000) (lin1w : F32 S128x64) (lin1b : F32 S64)
    (lin2w : F32 S64x64) (lin2b : F32 S64) (wl1 : F32 S64x64) (bl1 : F32 S64) (wr1 : F32 S64x64)
    (wl2 : F32 S64x64) (bl2 : F32 S64) (wr2 : F32 S64x64) (w1 : F32 S128x64) (b1 : F32 S64) (w2 : F32 S64x1) (b2 : F32 S1) :
    outHost x ei mei lin1w lin1b lin2w lin2b wl1 bl1 wr1 wl2 bl2 wr2 w1 b1 w2 b2
      = out x ei mei lin1w lin1b lin2w lin2b wl1 bl1 wr1 wl2 bl2 wr2 w1 b1 w2 b2 := by
  unfold outHost out score
  simp only [hostLin1_eq, hostLin2_eq, hostSage_eq, hostMlp_eq]

/-! ## The last two operations commute: `tanh` entry by entry, and a reshape of the one column to a vector -/

theorem cast_tanh (g : F32 S1000000x1) (h : S1000000x1.ShapeCasts S1000000) :
    shapeCast S1000000 (fun i => Ideal.tanh (g i)) h = Host.tanh (F := Ideal) (shapeCast S1000000 g h) := by
  funext j
  obtain ⟨r, rfl⟩ : ∃ r : Fin 1000000, j = ix1 r := ⟨j 0, eq_ix1 j⟩
  have hk : (S1000000x1.rowMajor (ix2 r (0 : Fin 1))).val = (S1000000.rowMajor (ix1 r)).val := by
    rw [Shape.rowMajor_val_two, Shape.rowMajor_val_one]
    show r.val * 1 + 0 = r.val
    omega
  show shapeCast S1000000 (fun i => Ideal.tanh (g i)) h (ix1 r) = Ideal.tanh (shapeCast S1000000 g h (ix1 r))
  rw [shapeCast_apply (fun i => Ideal.tanh (g i)) h (ix1 r) (ix2 r (0 : Fin 1)) hk, shapeCast_apply g h (ix1 r) (ix2 r (0 : Fin 1)) hk]

/-- The score with its `tanh` taken before the reshape, as the last kernel launch and the reshape after it compute it. -/
theorem score_eq (mei : I32 S2x1000000) (h : F32 S100000x64) (w1 : F32 S128x64) (b1 : F32 S64) (w2 : F32 S64x1) (b2 : F32 S1) :
    shapeCast S1000000 (mlpScore (M := 1000000) (K := 128) (H := 64) (N := 1) (cat mei h) w1 b1 w2 b2) shapeCasts_S1000000x1_S1000000
      = score mei h w1 b1 w2 b2 :=
  cast_tanh _ shapeCasts_S1000000x1_S1000000

end Cert.Net

end
-- ==== Proof.ChainWalks.lean ====
/-
  Buffers that nothing between their definition and their use writes.

  No host operation and no kernel launch of the idealized kernel's @main writes an argument array, so at every
  boundary of the generated fold an argument array is as launched.  The two rows of the edge index (`main_v1`,
  `main_v3`) and the inverse-degree column (`main_v15`) are computed by the first stretch of host operations, from
  the edge index alone, and are carried unchanged to the two aggregations.
-/
import proofs.«164999_j39333310496986_1_alg».proof.Proof.Gen.KernelIdeal.Frame
import proofs.«164999_j39333310496986_1_alg».proof.Proof.Net
import Idealize.ShloMosaic.Lib.StableHlo.Run

set_option maxRecDepth 16384

noncomputable section

namespace Cert.KernelIdeal.ChainValue

open Cert.KernelIdeal Cert.KernelIdeal.Gen
open Idealize.ShloMosaic Idealize.ShloMosaic.TcCoe Idealize.ShloMosaic.StableHlo Idealize.ShloMosaic.DenseLayer Idealize.SL.Sem

variable (m : (ℓ : Loc nD τ sig) → Buf (Elt Ideal) ℓ) (ρ : Dev nD → PrngReg) (c : Dev nD)

/-! ## The argument arrays at the boundaries where they are read -/

theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl
theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl
theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl
theorem W3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp <;> rfl
theorem W4_arg7 : W4 m ρ c (Proc.devRef .tc main_arg7) = (m ((c : Thread nD τ).loc main_arg7)) :=
  (W4_of_ne m ρ c main_arg7 (by decide)).trans (W3_arg7 m ρ c)
theorem W5_arg7 : W5 m ρ c (Proc.devRef .tc main_arg7) = (m ((c : Thread nD τ).loc main_arg7)) :=
  (show StableHlo.after hostOps1 (W4 m ρ c) (Proc.devRef .tc main_arg7) = W4 m ρ c (Proc.devRef .tc main_arg7) from by after_results_simp).trans (W4_arg7 m ρ c)
theorem W3_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp <;> rfl
theorem W4_arg8 : W4 m ρ c (Proc.devRef .tc main_arg8) = (m ((c : Thread nD τ).loc main_arg8)) :=
  (W4_of_ne m ρ c main_arg8 (by decide)).trans (W3_arg8 m ρ c)
theorem W5_arg8 : W5 m ρ c (Proc.devRef .tc main_arg8) = (m ((c : Thread nD τ).loc main_arg8)) :=
  (show StableHlo.after hostOps1 (W4 m ρ c) (Proc.devRef .tc main_arg8) = W4 m ρ c (Proc.devRef .tc main_arg8) from by after_results_simp).trans (W4_arg8 m ρ c)
theorem W3_arg9 : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results_simp <;> rfl
theorem W4_arg9 : W4 m ρ c (Proc.devRef .tc main_arg9) = (m ((c : Thread nD τ).loc main_arg9)) :=
  (W4_of_ne m ρ c main_arg9 (by decide)).trans (W3_arg9 m ρ c)
theorem W5_arg9 : W5 m ρ c (Proc.devRef .tc main_arg9) = (m ((c : Thread nD τ).loc main_arg9)) :=
  (show StableHlo.after hostOps1 (W4 m ρ c) (Proc.devRef .tc main_arg9) = W4 m ρ c (Proc.devRef .tc main_arg9) from by after_results_simp).trans (W4_arg9 m ρ c)
theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl
theorem W4_arg5 : W4 m ρ c (Proc.devRef .tc main_arg5) = (m ((c : Thread nD τ).loc main_arg5)) :=
  (W4_of_ne m ρ c main_arg5 (by decide)).trans (W3_arg5 m ρ c)
theorem W5_arg5 : W5 m ρ c (Proc.devRef .tc main_arg5) = (m ((c : Thread nD τ).loc main_arg5)) :=
  (show StableHlo.after hostOps1 (W4 m ρ c) (Proc.devRef .tc main_arg5) = W4 m ρ c (Proc.devRef .tc main_arg5) from by after_results_simp).trans (W4_arg5 m ρ c)
theorem W6_arg5 : W6 m ρ c (Proc.devRef .tc main_arg5) = (m ((c : Thread nD τ).loc main_arg5)) :=
  (W6_of_ne m ρ c main_arg5 (by decide)).trans (W5_arg5 m ρ c)
theorem W3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl
theorem W4_arg6 : W4 m ρ c (Proc.devRef .tc main_arg6) = (m ((c : Thread nD τ).loc main_arg6)) :=
  (W4_of_ne m ρ c main_arg6 (by decide)).trans (W3_arg6 m ρ c)
theorem W5_arg6 : W5 m ρ c (Proc.devRef .tc main_arg6) = (m ((c : Thread nD τ).loc main_arg6)) :=
  (show StableHlo.after hostOps1 (W4 m ρ c) (Proc.devRef .tc main_arg6) = W4 m ρ c (Proc.devRef .tc main_arg6) from by after_results_simp).trans (W4_arg6 m ρ c)
theorem W6_arg6 : W6 m ρ c (Proc.devRef .tc main_arg6) = (m ((c : Thread nD τ).loc main_arg6)) :=
  (W6_of_ne m ρ c main_arg6 (by decide)).trans (W5_arg6 m ρ c)
theorem W3_arg10 : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  after_results_simp <;> rfl
theorem W4_arg10 : W4 m ρ c (Proc.devRef .tc main_arg10) = (m ((c : Thread nD τ).loc main_arg10)) :=
  (W4_of_ne m ρ c main_arg10 (by decide)).trans (W3_arg10 m ρ c)
theorem W5_arg10 : W5 m ρ c (Proc.devRef .tc main_arg10) = (m ((c : Thread nD τ).loc main_arg10)) :=
  (show StableHlo.after hostOps1 (W4 m ρ c) (Proc.devRef .tc main_arg10) = W4 m ρ c (Proc.devRef .tc main_arg10) from by after_results_simp).trans (W4_arg10 m ρ c)
theorem W6_arg10 : W6 m ρ c (Proc.devRef .tc main_arg10) = (m ((c : Thread nD τ).loc main_arg10)) :=
  (W6_of_ne m ρ c main_arg10 (by decide)).trans (W5_arg10 m ρ c)
theorem W7_arg10 : W7 m ρ c (Proc.devRef .tc main_arg10) = (m ((c : Thread nD τ).loc main_arg10)) :=
  (W7_of_ne m ρ c main_arg10 (by decide)).trans (W6_arg10 m ρ c)
theorem W8_arg10 : W8 m ρ c (Proc.devRef .tc main_arg10) = (m ((c : Thread nD τ).loc main_arg10)) :=
  (show StableHlo.after hostOps3 (W7 m ρ c) (Proc.devRef .tc main_arg10) = W7 m ρ c (Proc.devRef .tc main_arg10) from by after_results_simp).trans (W7_arg10 m ρ c)
theorem W3_arg11 : W3 m ρ c (Proc.devRef .tc main_arg11) = (m ((c : Thread nD τ).loc main_arg11)) := by
  show StableHlo.after hostOps0_2 (StableHlo.after hostOps0_1 (StableHlo.after hostOps0 (W0 m ρ c))) (Proc.devRef .tc main_arg11) = _
  after_results_simp <;> rfl
theorem W4_arg11 : W4 m ρ c (Proc.devRef .tc main_arg11) = (m ((c : Thread nD τ).loc main_arg11)) :=
  (W4_of_ne m ρ c main_arg11 (by decide)).trans (W3_arg11 m ρ c)
theorem W5_arg11 : W5 m ρ c (Proc.devRef .tc main_arg11) = (m ((c : Thread nD τ).loc main_arg11)) :=
  (show StableHlo.after hostOps1 (W4 m ρ c) (Proc.devRef .tc main_arg11) = W4 m ρ c (Proc.devRef .tc main_arg11) from by after_results_simp).trans (W4_arg11 m ρ c)
theorem W6_arg11 : W6 m ρ c (Proc.devRef .tc main_arg11) = (m ((c : Thread nD τ).loc main_arg11)) :=
  (W6_of_ne m ρ c main_arg11 (by decide)).trans (W5_arg11 m ρ c)
theorem W7_arg11 : W7 m ρ c (Proc.devRef .tc main_arg11) = (m ((c : Thread nD τ).loc main_arg11)) :=
  (W7_of_ne m ρ c main_arg11 (by decide)).trans (W6_arg11 m ρ c)
theorem W8_arg11 : W8 m ρ c (Proc.devRef .tc main_arg11) = (m ((c : Thread nD τ).loc main_arg11)) :=
  (show StableHlo.after hostOps3 (W7 m ρ c) (Proc.devRef .tc main_arg11) = W7 m ρ c (Proc.devRef .tc main_arg11) from by after_results_simp).trans (W7_arg11 m ρ c)
theorem W3_arg12 : W3 m ρ c (Proc.devRef .tc main_arg12) = (m ((c : Thread nD τ).loc main_arg12)) := by
  show StableHlo.after hostOps0_2 (StableHlo.after hostOps0_1 (StableHlo.after hostOps0 (W0 m ρ c))) (Proc.devRef .tc main_arg12) = _
  after_results_simp <;> rfl
theorem W4_arg12 : W4 m ρ c (Proc.devRef .tc main_arg12) = (m ((c : Thread nD τ).loc main_arg12)) :=
  (W4_of_ne m ρ c main_arg12 (by decide)).trans (W3_arg12 m ρ c)
theorem W5_arg12 : W5 m ρ c (Proc.devRef .tc main_arg12) = (m ((c : Thread nD τ).loc main_arg12)) :=
  (show StableHlo.after hostOps1 (W4 m ρ c) (Proc.devRef .tc main_arg12) = W4 m ρ c (Proc.devRef .tc main_arg12) from by after_results_simp).trans (W4_arg12 m ρ c)
theorem W6_arg12 : W6 m ρ c (Proc.devRef .tc main_arg12) = (m ((c : Thread nD τ).loc main_arg12)) :=
  (W6_of_ne m ρ c main_arg12 (by decide)).trans (W5_arg12 m ρ c)
theorem W7_arg12 : W7 m ρ c (Proc.devRef .tc main_arg12) = (m ((c : Thread nD τ).loc main_arg12)) :=
  (W7_of_ne m ρ c main_arg12 (by decide)).trans (W6_arg12 m ρ c)
theorem W8_arg12 : W8 m ρ c (Proc.devRef .tc main_arg12) = (m ((c : Thread nD τ).loc main_arg12)) :=
  (show StableHlo.after hostOps3 (W7 m ρ c) (Proc.devRef .tc main_arg12) = W7 m ρ c (Proc.devRef .tc main_arg12) from by after_results_simp).trans (W7_arg12 m ρ c)
theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl
theorem W4_arg2 : W4 m ρ c (Proc.devRef .tc main_arg2) = (m ((c : Thread nD τ).loc main_arg2)) :=
  (W4_of_ne m ρ c main_arg2 (by decide)).trans (W3_arg2 m ρ c)
theorem W5_arg2 : W5 m ρ c (Proc.devRef .tc main_arg2) = (m ((c : Thread nD τ).loc main_arg2)) :=
  (show StableHlo.after hostOps1 (W4 m ρ c) (Proc.devRef .tc main_arg2) = W4 m ρ c (Proc.devRef .tc main_arg2) from by after_results_simp).trans (W4_arg2 m ρ c)
theorem W6_arg2 : W6 m ρ c (Proc.devRef .tc main_arg2) = (m ((c : Thread nD τ).loc main_arg2)) :=
  (W6_of_ne m ρ c main_arg2 (by decide)).trans (W5_arg2 m ρ c)
theorem W7_arg2 : W7 m ρ c (Proc.devRef .tc main_arg2) = (m ((c : Thread nD τ).loc main_arg2)) :=
  (W7_of_ne m ρ c main_arg2 (by decide)).trans (W6_arg2 m ρ c)
theorem W8_arg2 : W8 m ρ c (Proc.devRef .tc main_arg2) = (m ((c : Thread nD τ).loc main_arg2)) :=
  (show StableHlo.after hostOps3 (W7 m ρ c) (Proc.devRef .tc main_arg2) = W7 m ρ c (Proc.devRef .tc main_arg2) from by after_results_simp).trans (W7_arg2 m ρ c)
theorem W9_arg2 : W9 m ρ c (Proc.devRef .tc main_arg2) = (m ((c : Thread nD τ).loc main_arg2)) :=
  (W9_of_ne m ρ c main_arg2 (by decide)).trans (W8_arg2 m ρ c)
theorem W3_arg13 : W3 m ρ c (Proc.devRef .tc main_arg13) = (m ((c : Thread nD τ).loc main_arg13)) := by
  show StableHlo.after hostOps0_2 (StableHlo.after hostOps0_1 (StableHlo.after hostOps0 (W0 m ρ c))) (Proc.devRef .tc main_arg13) = _
  after_results_simp <;> rfl
theorem W4_arg13 : W4 m ρ c (Proc.devRef .tc main_arg13) = (m ((c : Thread nD τ).loc main_arg13)) :=
  (W4_of_ne m ρ c main_arg13 (by decide)).trans (W3_arg13 m ρ c)
theorem W5_arg13 : W5 m ρ c (Proc.devRef .tc main_arg13) = (m ((c : Thread nD τ).loc main_arg13)) :=
  (show StableHlo.after hostOps1 (W4 m ρ c) (Proc.devRef .tc main_arg13) = W4 m ρ c (Proc.devRef .tc main_arg13) from by after_results_simp).trans (W4_arg13 m ρ c)
theorem W6_arg13 : W6 m ρ c (Proc.devRef .tc main_arg13) = (m ((c : Thread nD τ).loc main_arg13)) :=
  (W6_of_ne m ρ c main_arg13 (by decide)).trans (W5_arg13 m ρ c)
theorem W7_arg13 : W7 m ρ c (Proc.devRef .tc main_arg13) = (m ((c : Thread nD τ).loc main_arg13)) :=
  (W7_of_ne m ρ c main_arg13 (by decide)).trans (W6_arg13 m ρ c)
theorem W8_arg13 : W8 m ρ c (Proc.devRef .tc main_arg13) = (m ((c : Thread nD τ).loc main_arg13)) :=
  (show StableHlo.after hostOps3 (W7 m ρ c) (Proc.devRef .tc main_arg13) = W7 m ρ c (Proc.devRef .tc main_arg13) from by after_results_simp).trans (W7_arg13 m ρ c)
theorem W9_arg13 : W9 m ρ c (Proc.devRef .tc main_arg13) = (m ((c : Thread nD τ).loc main_arg13)) :=
  (W9_of_ne m ρ c main_arg13 (by decide)).trans (W8_arg13 m ρ c)
theorem W10_arg13 : W10 m ρ c (Proc.devRef .tc main_arg13) = (m ((c : Thread nD τ).loc main_arg13)) :=
  (show StableHlo.after hostOps4 (W9 m ρ c) (Proc.devRef .tc main_arg13) = W9 m ρ c (Proc.devRef .tc main_arg13) from by after_results_simp).trans (W9_arg13 m ρ c)
theorem W3_arg14 : W3 m ρ c (Proc.devRef .tc main_arg14) = (m ((c : Thread nD τ).loc main_arg14)) := by
  show StableHlo.after hostOps0_2 (StableHlo.after hostOps0_1 (StableHlo.after hostOps0 (W0 m ρ c))) (Proc.devRef .tc main_arg14) = _
  after_results_simp <;> rfl
theorem W4_arg14 : W4 m ρ c (Proc.devRef .tc main_arg14) = (m ((c : Thread nD τ).loc main_arg14)) :=
  (W4_of_ne m ρ c main_arg14 (by decide)).trans (W3_arg14 m ρ c)
theorem W5_arg14 : W5 m ρ c (Proc.devRef .tc main_arg14) = (m ((c : Thread nD τ).loc main_arg14)) :=
  (show StableHlo.after hostOps1 (W4 m ρ c) (Proc.devRef .tc main_arg14) = W4 m ρ c (Proc.devRef .tc main_arg14) from by after_results_simp).trans (W4_arg14 m ρ c)
theorem W6_arg14 : W6 m ρ c (Proc.devRef .tc main_arg14) = (m ((c : Thread nD τ).loc main_arg14)) :=
  (W6_of_ne m ρ c main_arg14 (by decide)).trans (W5_arg14 m ρ c)
theorem W7_arg14 : W7 m ρ c (Proc.devRef .tc main_arg14) = (m ((c : Thread nD τ).loc main_arg14)) :=
  (W7_of_ne m ρ c main_arg14 (by decide)).trans (W6_arg14 m ρ c)
theorem W8_arg14 : W8 m ρ c (Proc.devRef .tc main_arg14) = (m ((c : Thread nD τ).loc main_arg14)) :=
  (show StableHlo.after hostOps3 (W7 m ρ c) (Proc.devRef .tc main_arg14) = W7 m ρ c (Proc.devRef .tc main_arg14) from by after_results_simp).trans (W7_arg14 m ρ c)
theorem W9_arg14 : W9 m ρ c (Proc.devRef .tc main_arg14) = (m ((c : Thread nD τ).loc main_arg14)) :=
  (W9_of_ne m ρ c main_arg14 (by decide)).trans (W8_arg14 m ρ c)
theorem W10_arg14 : W10 m ρ c (Proc.devRef .tc main_arg14) = (m ((c : Thread nD τ).loc main_arg14)) :=
  (show StableHlo.after hostOps4 (W9 m ρ c) (Proc.devRef .tc main_arg14) = W9 m ρ c (Proc.devRef .tc main_arg14) from by after_results_simp).trans (W9_arg14 m ρ c)
theorem W3_arg15 : W3 m ρ c (Proc.devRef .tc main_arg15) = (m ((c : Thread nD τ).loc main_arg15)) := by
  show StableHlo.after hostOps0_2 (StableHlo.after hostOps0_1 (StableHlo.after hostOps0 (W0 m ρ c))) (Proc.devRef .tc main_arg15) = _
  after_results_simp <;> rfl
theorem W4_arg15 : W4 m ρ c (Proc.devRef .tc main_arg15) = (m ((c : Thread nD τ).loc main_arg15)) :=
  (W4_of_ne m ρ c main_arg15 (by decide)).trans (W3_arg15 m ρ c)
theorem W5_arg15 : W5 m ρ c (Proc.devRef .tc main_arg15) = (m ((c : Thread nD τ).loc main_arg15)) :=
  (show StableHlo.after hostOps1 (W4 m ρ c) (Proc.devRef .tc main_arg15) = W4 m ρ c (Proc.devRef .tc main_arg15) from by after_results_simp).trans (W4_arg15 m ρ c)
theorem W6_arg15 : W6 m ρ c (Proc.devRef .tc main_arg15) = (m ((c : Thread nD τ).loc main_arg15)) :=
  (W6_of_ne m ρ c main_arg15 (by decide)).trans (W5_arg15 m ρ c)
theorem W7_arg15 : W7 m ρ c (Proc.devRef .tc main_arg15) = (m ((c : Thread nD τ).loc main_arg15)) :=
  (W7_of_ne m ρ c main_arg15 (by decide)).trans (W6_arg15 m ρ c)
theorem W8_arg15 : W8 m ρ c (Proc.devRef .tc main_arg15) = (m ((c : Thread nD τ).loc main_arg15)) :=
  (show StableHlo.after hostOps3 (W7 m ρ c) (Proc.devRef .tc main_arg15) = W7 m ρ c (Proc.devRef .tc main_arg15) from by after_results_simp).trans (W7_arg15 m ρ c)
theorem W9_arg15 : W9 m ρ c (Proc.devRef .tc main_arg15) = (m ((c : Thread nD τ).loc main_arg15)) :=
  (W9_of_ne m ρ c main_arg15 (by decide)).trans (W8_arg15 m ρ c)
theorem W10_arg15 : W10 m ρ c (Proc.devRef .tc main_arg15) = (m ((c : Thread nD τ).loc main_arg15)) :=
  (show StableHlo.after hostOps4 (W9 m ρ c) (Proc.devRef .tc main_arg15) = W9 m ρ c (Proc.devRef .tc main_arg15) from by after_results_simp).trans (W9_arg15 m ρ c)
theorem W3_arg16 : W3 m ρ c (Proc.devRef .tc main_arg16) = (m ((c : Thread nD τ).loc main_arg16)) := by
  show StableHlo.after hostOps0_2 (StableHlo.after hostOps0_1 (StableHlo.after hostOps0 (W0 m ρ c))) (Proc.devRef .tc main_arg16) = _
  after_results_simp <;> rfl
theorem W4_arg16 : W4 m ρ c (Proc.devRef .tc main_arg16) = (m ((c : Thread nD τ).loc main_arg16)) :=
  (W4_of_ne m ρ c main_arg16 (by decide)).trans (W3_arg16 m ρ c)
theorem W5_arg16 : W5 m ρ c (Proc.devRef .tc main_arg16) = (m ((c : Thread nD τ).loc main_arg16)) :=
  (show StableHlo.after hostOps1 (W4 m ρ c) (Proc.devRef .tc main_arg16) = W4 m ρ c (Proc.devRef .tc main_arg16) from by after_results_simp).trans (W4_arg16 m ρ c)
theorem W6_arg16 : W6 m ρ c (Proc.devRef .tc main_arg16) = (m ((c : Thread nD τ).loc main_arg16)) :=
  (W6_of_ne m ρ c main_arg16 (by decide)).trans (W5_arg16 m ρ c)
theorem W7_arg16 : W7 m ρ c (Proc.devRef .tc main_arg16) = (m ((c : Thread nD τ).loc main_arg16)) :=
  (W7_of_ne m ρ c main_arg16 (by decide)).trans (W6_arg16 m ρ c)
theorem W8_arg16 : W8 m ρ c (Proc.devRef .tc main_arg16) = (m ((c : Thread nD τ).loc main_arg16)) :=
  (show StableHlo.after hostOps3 (W7 m ρ c) (Proc.devRef .tc main_arg16) = W7 m ρ c (Proc.devRef .tc main_arg16) from by after_results_simp).trans (W7_arg16 m ρ c)
theorem W9_arg16 : W9 m ρ c (Proc.devRef .tc main_arg16) = (m ((c : Thread nD τ).loc main_arg16)) :=
  (W9_of_ne m ρ c main_arg16 (by decide)).trans (W8_arg16 m ρ c)
theorem W10_arg16 : W10 m ρ c (Proc.devRef .tc main_arg16) = (m ((c : Thread nD τ).loc main_arg16)) :=
  (show StableHlo.after hostOps4 (W9 m ρ c) (Proc.devRef .tc main_arg16) = W9 m ρ c (Proc.devRef .tc main_arg16) from by after_results_simp).trans (W9_arg16 m ρ c)

/-! ## The edge index's rows and the inverse degrees, carried to the two aggregations -/

theorem W3_main_v1 : W3 m ρ c (Proc.devRef .tc main_v1) = Net.src (m ((c : Thread nD τ).loc main_arg1)) := by
  show StableHlo.after hostOps0_2 (StableHlo.after hostOps0_1 (StableHlo.after hostOps0 (W0 m ρ c))) (Proc.devRef .tc main_v1) = _
  after_results_simp <;> rfl
theorem W4_main_v1 : W4 m ρ c (Proc.devRef .tc main_v1) = Net.src (m ((c : Thread nD τ).loc main_arg1)) :=
  (W4_of_ne m ρ c main_v1 (by decide)).trans (W3_main_v1 m ρ c)
theorem W5_main_v1 : W5 m ρ c (Proc.devRef .tc main_v1) = Net.src (m ((c : Thread nD τ).loc main_arg1)) :=
  (show StableHlo.after hostOps1 (W4 m ρ c) (Proc.devRef .tc main_v1) = W4 m ρ c (Proc.devRef .tc main_v1) from by after_results_simp).trans (W4_main_v1 m ρ c)
theorem W6_main_v1 : W6 m ρ c (Proc.devRef .tc main_v1) = Net.src (m ((c : Thread nD τ).loc main_arg1)) :=
  (W6_of_ne m ρ c main_v1 (by decide)).trans (W5_main_v1 m ρ c)
theorem W7_main_v1 : W7 m ρ c (Proc.devRef .tc main_v1) = Net.src (m ((c : Thread nD τ).loc main_arg1)) :=
  (W7_of_ne m ρ c main_v1 (by decide)).trans (W6_main_v1 m ρ c)
theorem W3_main_v3 : W3 m ρ c (Proc.devRef .tc main_v3) = Net.dst (m ((c : Thread nD τ).loc main_arg1)) := by
  show StableHlo.after hostOps0_2 (StableHlo.after hostOps0_1 (StableHlo.after hostOps0 (W0 m ρ c))) (Proc.devRef .tc main_v3) = _
  after_results_simp <;> rfl
theorem W4_main_v3 : W4 m ρ c (Proc.devRef .tc main_v3) = Net.dst (m ((c : Thread nD τ).loc main_arg1)) :=
  (W4_of_ne m ρ c main_v3 (by decide)).trans (W3_main_v3 m ρ c)
theorem W5_main_v3 : W5 m ρ c (Proc.devRef .tc main_v3) = Net.dst (m ((c : Thread nD τ).loc main_arg1)) :=
  (show StableHlo.after hostOps1 (W4 m ρ c) (Proc.devRef .tc main_v3) = W4 m ρ c (Proc.devRef .tc main_v3) from by after_results_simp).trans (W4_main_v3 m ρ c)
theorem W6_main_v3 : W6 m ρ c (Proc.devRef .tc main_v3) = Net.dst (m ((c : Thread nD τ).loc main_arg1)) :=
  (W6_of_ne m ρ c main_v3 (by decide)).trans (W5_main_v3 m ρ c)
theorem W7_main_v3 : W7 m ρ c (Proc.devRef .tc main_v3) = Net.dst (m ((c : Thread nD τ).loc main_arg1)) :=
  (W7_of_ne m ρ c main_v3 (by decide)).trans (W6_main_v3 m ρ c)
/-- The first twenty host operations leave the comparison `deg > 0` … -/
theorem W1_main_v9 : W1 m ρ c (Proc.devRef .tc main_v9) = cmpf (F := Ideal) .ogt (Net.deg (m ((c : Thread nD τ).loc main_arg1))) Net.zerosN := by
  show StableHlo.after hostOps0 (W0 m ρ c) (Proc.devRef .tc main_v9) = _
  after_results_simp <;> rfl
/-- … the quotient `1 / max (deg, 1)` … -/
theorem W1_main_v13 : W1 m ρ c (Proc.devRef .tc main_v13)
    = Host.divf (F := Ideal) Net.onesN (maximumf (F := Ideal) (Net.deg (m ((c : Thread nD τ).loc main_arg1))) Net.onesN) := by
  show StableHlo.after hostOps0 (W0 m ρ c) (Proc.devRef .tc main_v13) = _
  after_results_simp <;> rfl
/-- … and the zero the selection falls back to. -/
theorem W1_main_cst_4 : W1 m ρ c (Proc.devRef .tc main_cst_4) = constant (F := Ideal) S_ .f32 0x00000000#32 := by
  show StableHlo.after hostOps0 (W0 m ρ c) (Proc.devRef .tc main_cst_4) = _
  after_results_simp <;> rfl
/-- The selection between the quotient and zero, from any contents. -/
theorem where_stage (W : Valuation τ sig (Elt Ideal)) : StableHlo.after hostOps0_1 W (Proc.devRef .tc main_v14)
    = select (W (Proc.devRef .tc main_v9)) (W (Proc.devRef .tc main_v13))
        (broadcastInDim S100000 ![] bcast_S_S100000 (W (Proc.devRef .tc main_cst_4))) := by
  after_results_simp <;> rfl
/-- The selected vector as a column, from any contents. -/
theorem column_stage (W : Valuation τ sig (Elt Ideal)) : StableHlo.after hostOps0_2 W (Proc.devRef .tc main_v15)
    = broadcastInDim S100000x1 ![0] bcast_S100000_S100000x1_0 (W (Proc.devRef .tc main_v14)) := by
  after_results_simp <;> rfl
theorem W3_main_v15 : W3 m ρ c (Proc.devRef .tc main_v15) = Net.invDeg (m ((c : Thread nD τ).loc main_arg1)) := by
  show StableHlo.after hostOps0_2 (W2 m ρ c) (Proc.devRef .tc main_v15) = _
  rw [column_stage]
  show broadcastInDim S100000x1 ![0] bcast_S100000_S100000x1_0
    (StableHlo.after hostOps0_1 (W1 m ρ c) (Proc.devRef .tc main_v14)) = _
  rw [where_stage, W1_main_v9, W1_main_v13, W1_main_cst_4]
  rfl
theorem W4_main_v15 : W4 m ρ c (Proc.devRef .tc main_v15) = Net.invDeg (m ((c : Thread nD τ).loc main_arg1)) :=
  (W4_of_ne m ρ c main_v15 (by decide)).trans (W3_main_v15 m ρ c)
theorem W5_main_v15 : W5 m ρ c (Proc.devRef .tc main_v15) = Net.invDeg (m ((c : Thread nD τ).loc main_arg1)) :=
  (show StableHlo.after hostOps1 (W4 m ρ c) (Proc.devRef .tc main_v15) = W4 m ρ c (Proc.devRef .tc main_v15) from by after_results_simp).trans (W4_main_v15 m ρ c)
theorem W6_main_v15 : W6 m ρ c (Proc.devRef .tc main_v15) = Net.invDeg (m ((c : Thread nD τ).loc main_arg1)) :=
  (W6_of_ne m ρ c main_v15 (by decide)).trans (W5_main_v15 m ρ c)
theorem W7_main_v15 : W7 m ρ c (Proc.devRef .tc main_v15) = Net.invDeg (m ((c : Thread nD τ).loc main_arg1)) :=
  (W7_of_ne m ρ c main_v15 (by decide)).trans (W6_main_v15 m ρ c)

end Cert.KernelIdeal.ChainValue

end
-- ==== Proof.ChainLayers.lean ====
/-
  The idealized kernel's four node layers as functions of the arguments.

  The generated frame folds the buffer contents through @main: a stretch of host operations rewrites the buffers it
  writes, a kernel launch leaves each of its output arrays at what its write-backs leave and every other buffer as
  it was.  Read from the last boundary back to the launch memory this gives the result buffer:

    * no host operation and no launch writes an argument array, so every boundary has it as launched;
    * the two rows of the edge index and the inverse-degree column are computed once, before the first launch, and
      are carried unchanged to the two aggregations;
    * each launch's output array is the entry-wise layer of the arrays it found (`Region0.final` … `Region4.final`);
    * each stretch between launches is the aggregation (gather, scatter-add, scale) or the concatenation of two
      gathers, applied to what the previous launch left.

  This module reads the four node layers; Proof/ChainValue reads the score and composes the result.
-/
import proofs.«164999_j39333310496986_1_alg».proof.Proof.Gen.KernelIdeal.Frame
import proofs.«164999_j39333310496986_1_alg».proof.Proof.KernelRun
import proofs.«164999_j39333310496986_1_alg».proof.Proof.Region0
import proofs.«164999_j39333310496986_1_alg».proof.Proof.Region1
import proofs.«164999_j39333310496986_1_alg».proof.Proof.Region2
import proofs.«164999_j39333310496986_1_alg».proof.Proof.Region3
import proofs.«164999_j39333310496986_1_alg».proof.Proof.Region4
import proofs.«164999_j39333310496986_1_alg».proof.Proof.Net
import proofs.«164999_j39333310496986_1_alg».proof.Proof.ChainWalks
import Idealize.ShloMosaic.Lib.StableHlo.Run

set_option maxRecDepth 16384

noncomputable section

namespace Cert.KernelIdeal.ChainValue

open Cert.KernelIdeal Cert.KernelIdeal.Gen
open Idealize.ShloMosaic Idealize.ShloMosaic.TcCoe Idealize.ShloMosaic.StableHlo Idealize.ShloMosaic.DenseLayer Idealize.SL.Sem

variable (m : (ℓ : Loc nD τ sig) → Buf (Elt Ideal) ℓ) (ρ : Dev nD → PrngReg) (c : Dev nD)

/-! ## The layers -/

/-- The first layer's nodes. -/
abbrev K1 : (⟨2, ![100000, 64]⟩ : Shape).Idx → EReal := Net.h1 (m ((c : Thread nD τ).loc main_arg0)) (m ((c : Thread nD τ).loc main_arg3)) (m ((c : Thread nD τ).loc main_arg4))
/-- After the first message-passing step. -/
abbrev K2 : (⟨2, ![100000, 64]⟩ : Shape).Idx → EReal := Net.h2 (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9))
/-- The second dense layer. -/
abbrev K3 : (⟨2, ![100000, 64]⟩ : Shape).Idx → EReal := Net.h3 (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg5)) (m ((c : Thread nD τ).loc main_arg6))
/-- After the second message-passing step. -/
abbrev K4 : (⟨2, ![100000, 64]⟩ : Shape).Idx → EReal :=
  Net.h4 (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg5)) (m ((c : Thread nD τ).loc main_arg6)) (m ((c : Thread nD τ).loc main_arg10)) (m ((c : Thread nD τ).loc main_arg11)) (m ((c : Thread nD τ).loc main_arg12))

theorem W4_main_v16 : W4 m ρ c (Proc.devRef .tc main_v16) = K1 m c :=
  (W4_arr m ρ c 3).trans ((Region0.final (V3 m ρ) c).trans (by
    show linRelu (M := 100000) (K := 128) (N := 64) (W3 m ρ c (Proc.devRef .tc main_arg0)) (W3 m ρ c (Proc.devRef .tc main_arg3))
      (W3 m ρ c (Proc.devRef .tc main_arg4)) = _
    rw [W3_arg0, W3_arg3, W3_arg4]))

theorem W5_main_v16 : W5 m ρ c (Proc.devRef .tc main_v16) = K1 m c :=
  (show StableHlo.after hostOps1 (W4 m ρ c) (Proc.devRef .tc main_v16) = W4 m ρ c (Proc.devRef .tc main_v16) from by after_results_simp).trans
    (W4_main_v16 m ρ c)

theorem W5_main_v28 : W5 m ρ c (Proc.devRef .tc main_v28) = Net.agg (m ((c : Thread nD τ).loc main_arg1)) (K1 m c) := by
  show StableHlo.after hostOps1 (W4 m ρ c) (Proc.devRef .tc main_v28) = _
  after_results_simp
  rw [W4_main_v16, W4_main_v1, W4_main_v3, W4_main_v15]
  rfl

theorem W6_main_v29 : W6 m ρ c (Proc.devRef .tc main_v29) = K2 m c :=
  (W6_arr m ρ c 5).trans ((Region1.final (V5 m ρ) c).trans (by
    show sageRelu (M := 100000) (K := 64) (N := 64) (W5 m ρ c (Proc.devRef .tc main_v28)) (W5 m ρ c (Proc.devRef .tc main_v16))
      (W5 m ρ c (Proc.devRef .tc main_arg7)) (W5 m ρ c (Proc.devRef .tc main_arg8)) (W5 m ρ c (Proc.devRef .tc main_arg9)) = _
    rw [W5_main_v28, W5_main_v16, W5_arg7, W5_arg8, W5_arg9]))

theorem W7_main_v30 : W7 m ρ c (Proc.devRef .tc main_v30) = K3 m c :=
  (W7_arr m ρ c 3).trans ((Region2.final (V6 m ρ) c).trans (by
    show linRelu (M := 100000) (K := 64) (N := 64) (W6 m ρ c (Proc.devRef .tc main_v29)) (W6 m ρ c (Proc.devRef .tc main_arg5))
      (W6 m ρ c (Proc.devRef .tc main_arg6)) = _
    rw [W6_main_v29, W6_arg5, W6_arg6]))

theorem W8_main_v30 : W8 m ρ c (Proc.devRef .tc main_v30) = K3 m c :=
  (show StableHlo.after hostOps3 (W7 m ρ c) (Proc.devRef .tc main_v30) = W7 m ρ c (Proc.devRef .tc main_v30) from by after_results_simp).trans
    (W7_main_v30 m ρ c)

theorem W8_main_v42 : W8 m ρ c (Proc.devRef .tc main_v42) = Net.agg (m ((c : Thread nD τ).loc main_arg1)) (K3 m c) := by
  show StableHlo.after hostOps3 (W7 m ρ c) (Proc.devRef .tc main_v42) = _
  after_results_simp
  rw [W7_main_v30, W7_main_v1, W7_main_v3, W7_main_v15]
  rfl

theorem W9_main_v43 : W9 m ρ c (Proc.devRef .tc main_v43) = K4 m c :=
  (W9_arr m ρ c 5).trans ((Region3.final (V8 m ρ) c).trans (by
    show sageRelu (M := 100000) (K := 64) (N := 64) (W8 m ρ c (Proc.devRef .tc main_v42)) (W8 m ρ c (Proc.devRef .tc main_v30))
      (W8 m ρ c (Proc.devRef .tc main_arg10)) (W8 m ρ c (Proc.devRef .tc main_arg11)) (W8 m ρ c (Proc.devRef .tc main_arg12)) = _
    rw [W8_main_v42, W8_main_v30, W8_arg10, W8_arg11, W8_arg12]))

end Cert.KernelIdeal.ChainValue

end
-- ==== Proof.ChainCat.lean ====
/-
  The stretch of host operations before the last launch: two gathers and their concatenation.

  The stretch slices the two rows of the move-edge index, wraps negative indices, gathers the rows of the last node
  layer at each row's indices, and joins the two gathered arrays side by side.  The join is the stretch's last
  operation: its result reads the two gathered buffers from the contents before it, and it writes neither of them.
-/
import proofs.«164999_j39333310496986_1_alg».proof.Proof.Gen.KernelIdeal.Frame
import proofs.«164999_j39333310496986_1_alg».proof.Proof.Net
import proofs.«164999_j39333310496986_1_alg».proof.Proof.ChainWalks
import proofs.«164999_j39333310496986_1_alg».proof.Proof.ChainLayers
import Idealize.ShloMosaic.Lib.StableHlo.Run
import Idealize.ShloMosaic.Lib.Pipeline.Frame

set_option maxRecDepth 16384

noncomputable section

namespace Cert.KernelIdeal.ChainValue

open Cert.KernelIdeal Cert.KernelIdeal.Gen
open Idealize.ShloMosaic Idealize.ShloMosaic.TcCoe Idealize.ShloMosaic.StableHlo Idealize.ShloMosaic.DenseLayer Idealize.SL.Sem

/-- The join, the stretch's last operation. -/
abbrev joinOp : HloOp τ sig (Elt Ideal) :=
  (StableHlo.binary main_v54 main_v61 main_v62 ((fun a b => concatenate S1000000x128 1 [⟨S1000000x64, a⟩, ⟨S1000000x64, b⟩] concatenates_S1000000x64_S1000000x64_S1000000x128_d1) : (⟨S1000000x64, .f32⟩ : BufTy).Contents (Elt Ideal) → (⟨S1000000x64, .f32⟩ : BufTy).Contents (Elt Ideal) → (⟨S1000000x128, .f32⟩ : BufTy).Contents (Elt Ideal)))

/-- The stretch is its first twenty-five operations followed by the join. -/
theorem hostOps4_split :
    (hostOps4 : List (HloOp τ sig (Elt Ideal))) = (hostOps4 : List (HloOp τ sig (Elt Ideal))).dropLast ++ [joinOp] := rfl

/-- The contents after the stretch are the join's result on the contents after the operations before it. -/
theorem after_hostOps4 (W : Valuation τ sig (Elt Ideal)) :
    StableHlo.after hostOps4 W
      = joinOp.result (StableHlo.after (hostOps4 : List (HloOp τ sig (Elt Ideal))).dropLast W) :=
  (congrArg (fun l => StableHlo.after l W) hostOps4_split).trans
    (StableHlo.after_append (hostOps4 : List (HloOp τ sig (Elt Ideal))).dropLast [joinOp] W)

/-- The joined array is the two gathered arrays, as the stretch leaves them, side by side. -/
theorem join_stage (W : Valuation τ sig (Elt Ideal)) :
    StableHlo.after hostOps4 W (Proc.devRef .tc main_v62)
      = concatenate S1000000x128 1
          [⟨S1000000x64, StableHlo.after hostOps4 W (Proc.devRef .tc main_v54)⟩,
           ⟨S1000000x64, StableHlo.after hostOps4 W (Proc.devRef .tc main_v61)⟩]
          concatenates_S1000000x64_S1000000x64_S1000000x128_d1 := by
  rw [after_hostOps4 W]
  unfold joinOp
  rw [binary_result]
  rw [binary_result_ne]; rotate_left; decide
  rw [binary_result_ne]; rotate_left; decide

variable (m : (ℓ : Loc nD τ sig) → Buf (Elt Ideal) ℓ) (ρ : Dev nD → PrngReg) (c : Dev nD)

theorem W10_main_v54 : W10 m ρ c (Proc.devRef .tc main_v54)
    = Host.gather Cert.ReferenceIdeal.gather_S100000x64_S1000000x1_S1000000x64_1_0_n_n_0_1_164 (K4 m c) (Net.wrapM (Net.msrc (m ((c : Thread nD τ).loc main_arg2)))) := by
  show StableHlo.after hostOps4 (W9 m ρ c) (Proc.devRef .tc main_v54) = _
  after_results_simp
  rw [W9_main_v43, W9_arg2]
  rfl

theorem W10_main_v61 : W10 m ρ c (Proc.devRef .tc main_v61)
    = Host.gather Cert.ReferenceIdeal.gather_S100000x64_S1000000x1_S1000000x64_1_0_n_n_0_1_164 (K4 m c) (Net.wrapM (Net.mdst (m ((c : Thread nD τ).loc main_arg2)))) := by
  show StableHlo.after hostOps4 (W9 m ρ c) (Proc.devRef .tc main_v61) = _
  after_results_simp
  rw [W9_main_v43, W9_arg2]
  rfl

theorem W10_main_v62 : W10 m ρ c (Proc.devRef .tc main_v62) = Net.cat (m ((c : Thread nD τ).loc main_arg2)) (K4 m c) := by
  show StableHlo.after hostOps4 (W9 m ρ c) (Proc.devRef .tc main_v62) = _
  rw [join_stage (W9 m ρ c)]
  rw [show StableHlo.after hostOps4 (W9 m ρ c) (Proc.devRef .tc main_v54) = _ from W10_main_v54 m ρ c,
    show StableHlo.after hostOps4 (W9 m ρ c) (Proc.devRef .tc main_v61) = _ from W10_main_v61 m ρ c]
  rfl

end Cert.KernelIdeal.ChainValue

end
-- ==== Proof.ChainValue.lean ====
/-
  The idealized kernel's result as a function of the arguments.

  The generated frame folds the buffer contents through @main: a stretch of host operations rewrites the buffers it
  writes, a kernel launch leaves each of its output arrays at what its write-backs leave and every other buffer as
  it was.  Read from the last boundary back to the launch memory this gives the result buffer:

    * no host operation and no launch writes an argument array, so every boundary has it as launched;
    * the two rows of the edge index and the inverse-degree column are computed once, before the first launch, and
      are carried unchanged to the two aggregations;
    * each launch's output array is the entry-wise layer of the arrays it found (`Region0.final` … `Region4.final`);
    * each stretch between launches is the aggregation (gather, scatter-add, scale) or the concatenation of two
      gathers, applied to what the previous launch left.

  Composed, the result is the network `Net.out` of the arguments.
-/
import proofs.«164999_j39333310496986_1_alg».proof.Proof.Gen.KernelIdeal.Frame
import proofs.«164999_j39333310496986_1_alg».proof.Proof.KernelRun
import proofs.«164999_j39333310496986_1_alg».proof.Proof.Region0
import proofs.«164999_j39333310496986_1_alg».proof.Proof.Region1
import proofs.«164999_j39333310496986_1_alg».proof.Proof.Region2
import proofs.«164999_j39333310496986_1_alg».proof.Proof.Region3
import proofs.«164999_j39333310496986_1_alg».proof.Proof.Region4
import proofs.«164999_j39333310496986_1_alg».proof.Proof.Net
import proofs.«164999_j39333310496986_1_alg».proof.Proof.ChainWalks
import proofs.«164999_j39333310496986_1_alg».proof.Proof.ChainLayers
import proofs.«164999_j39333310496986_1_alg».proof.Proof.ChainCat
import Idealize.ShloMosaic.Lib.StableHlo.Run

set_option maxRecDepth 16384

noncomputable section

namespace Cert.KernelIdeal.ChainValue

open Cert.KernelIdeal Cert.KernelIdeal.Gen
open Idealize.ShloMosaic Idealize.ShloMosaic.TcCoe Idealize.ShloMosaic.StableHlo Idealize.ShloMosaic.DenseLayer Idealize.SL.Sem

variable (m : (ℓ : Loc nD τ sig) → Buf (Elt Ideal) ℓ) (ρ : Dev nD → PrngReg) (c : Dev nD)

/-! ## The score -/

theorem W11_main_v63 : W11 m ρ c (Proc.devRef .tc main_v63)
    = mlpScore (M := 1000000) (K := 128) (H := 64) (N := 1) (Net.cat (m ((c : Thread nD τ).loc main_arg2)) (K4 m c)) (m ((c : Thread nD τ).loc main_arg13)) (m ((c : Thread nD τ).loc main_arg14)) (m ((c : Thread nD τ).loc main_arg15)) (m ((c : Thread nD τ).loc main_arg16)) :=
  (W11_arr m ρ c 5).trans ((Region4.final (V10 m ρ) c).trans (by
    show mlpScore (M := 1000000) (K := 128) (H := 64) (N := 1) (W10 m ρ c (Proc.devRef .tc main_v62))
      (W10 m ρ c (Proc.devRef .tc main_arg13)) (W10 m ρ c (Proc.devRef .tc main_arg14)) (W10 m ρ c (Proc.devRef .tc main_arg15))
      (W10 m ρ c (Proc.devRef .tc main_arg16)) = _
    rw [W10_main_v62, W10_arg13, W10_arg14, W10_arg15, W10_arg16]))

/-- The last host operation reshapes the one score column to a vector, from any contents. -/
theorem reshape_stage (W : Valuation τ sig (Elt Ideal)) : StableHlo.after hostOps5 W (Proc.devRef .tc main_v64)
    = shapeCast main_v64.ty.shape (W (Proc.devRef .tc main_v63)) shapeCasts_S1000000x1_S1000000 := by
  after_results_simp <;> rfl

/-- The result buffer at the last boundary is the score of the last node layer. -/
theorem result_score : W12 m ρ c (Proc.devRef .tc main_v64) = Net.score (m ((c : Thread nD τ).loc main_arg2)) (K4 m c) (m ((c : Thread nD τ).loc main_arg13)) (m ((c : Thread nD τ).loc main_arg14)) (m ((c : Thread nD τ).loc main_arg15)) (m ((c : Thread nD τ).loc main_arg16)) := by
  show StableHlo.after hostOps5 (W11 m ρ c) (Proc.devRef .tc main_v64) = _
  rw [reshape_stage, W11_main_v63]
  exact Net.score_eq (m ((c : Thread nD τ).loc main_arg2)) (K4 m c) (m ((c : Thread nD τ).loc main_arg13)) (m ((c : Thread nD τ).loc main_arg14)) (m ((c : Thread nD τ).loc main_arg15)) (m ((c : Thread nD τ).loc main_arg16))

/-- The result buffer at the last boundary is the network of the arguments. -/
theorem result : W12 m ρ c (Proc.devRef .tc main_v64) = Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (result_score m ρ c).trans (show Net.score (m ((c : Thread nD τ).loc main_arg2)) (K4 m c) (m ((c : Thread nD τ).loc main_arg13)) (m ((c : Thread nD τ).loc main_arg14)) (m ((c : Thread nD τ).loc main_arg15)) (m ((c : Thread nD τ).loc main_arg16)) = Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) from rfl)

/-- Every weakly fair execution of the idealized kernel terminates, nothing faulting, with its result at the network of
    the arguments and the argument arrays as launched. -/
theorem run : θ_run defs (onTc (τ := τ) (main (F := Ideal))) ⟨m, fun _ => 0, ρ⟩ (fun r => ∀ c : Dev nD,
      r.2.mem ((c.tc : Thread nD τ).loc main_v64) = Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c).1.trans (result m ρ c), (h c).2⟩) (RunValue.run m ρ)

end Cert.KernelIdeal.ChainValue

end
-- ==== Proof.ReferenceValue.lean ====
/-
  The idealized reference's result as a function of the arguments.

  The reference is one straight line of host operations; its run ends with the result buffer at the operations'
  composed term of the arguments.  That term is the network with every dense layer spelt as the host's chain
  (`Net.outHost`: the definitions unfold to it), and the host's chains are the entry-wise layers (`Net.outHost_eq`).
-/
import proofs.«164999_j39333310496986_1_alg».proof.Proof.ReferenceRunP
import proofs.«164999_j39333310496986_1_alg».proof.Proof.Net

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem

variable (m : (ℓ : Loc nD τ sig) → Buf (Elt Ideal) ℓ) (c : Dev nD)

set_option maxHeartbeats 4000000 in
/-- The run's composed term is the network over the host's dense chains. -/
theorem res_eq_outHost : res_main_v93 (F := Ideal) m c = Net.outHost (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold res_main_v93
  rfl

/-- The reference's result is the network of the arguments. -/
theorem result : res_main_v93 (F := Ideal) m c = Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  (res_eq_outHost m c).trans (Net.outHost_eq _ _ _ _ _ _ _ _ _ _ _ _ _ _ _ _ _)

end Cert.ReferenceIdeal.RefValue

end
-- ==== Proof.lean ====
/-
  The certificate of the move scorer: a graph network of two dense layers and two mean-aggregation steps over
  100000 nodes and 3200000 edges, followed by a two-layer score with `tanh` on 1000000 move edges.

  The kernel computes the five dense pieces in five row-blocked launches and leaves the gathers, the scatter-adds
  and the concatenation to the host; the reference is host operations throughout.  At the ideal instance a change of
  float format is the identity and a blocked matrix product is the whole one, so each launch's output array is the
  entry-wise layer of what it found (Proof/Region0 … Region4), the stretches between launches are the same host
  operations as the reference's (Proof/ChainValue), and both results are the one network `Net.out` of the
  arguments (Proof/Net, Proof/ReferenceValue).  No law used needs the inputs to be finite.

  The three frames are the generated ones (the reference's is its run with the result dropped); the idealization
  rewrote no operation, so `preserves` is trivial.
-/
import proofs.«164999_j39333310496986_1_alg».proof.Defs
import proofs.«164999_j39333310496986_1_alg».proof.Proof.Gen.Kernel
import proofs.«164999_j39333310496986_1_alg».proof.Proof.Gen.Kernel.Skeleton
import proofs.«164999_j39333310496986_1_alg».proof.Proof.Gen.Kernel.Launch
import proofs.«164999_j39333310496986_1_alg».proof.Proof.Gen.Kernel.Points
import proofs.«164999_j39333310496986_1_alg».proof.Proof.Gen.Kernel.Frame
import proofs.«164999_j39333310496986_1_alg».proof.Proof.Gen.KernelIdeal
import proofs.«164999_j39333310496986_1_alg».proof.Proof.Gen.KernelIdeal.Skeleton
import proofs.«164999_j39333310496986_1_alg».proof.Proof.Gen.KernelIdeal.Launch
import proofs.«164999_j39333310496986_1_alg».proof.Proof.Gen.KernelIdeal.Points
import proofs.«164999_j39333310496986_1_alg».proof.Proof.Gen.KernelIdeal.Frame
import proofs.«164999_j39333310496986_1_alg».proof.Proof.Gen.ReferenceIdeal
import proofs.«164999_j39333310496986_1_alg».proof.Proof.Gen.Pre_finite_inputs
import proofs.«164999_j39333310496986_1_alg».proof.Proof.KernelRun
import proofs.«164999_j39333310496986_1_alg».proof.Proof.ChainValue
import proofs.«164999_j39333310496986_1_alg».proof.Proof.ReferenceRunP
import proofs.«164999_j39333310496986_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the network of the arguments. -/
theorem algebraic : Cert.algebraic_KernelIdeal_ReferenceIdeal := by
  intro m ρ m' ρ' _ hagree
  refine ⟨_, Cert.KernelIdeal.ChainValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15, h16⟩ := hagree c
  refine (Cert.ReferenceIdeal.RefValue.result m' c).trans ?_
  rw [h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
